-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x256x256x1 : Shape := ⟨5, ![4, 8, 256, 256, 1]⟩
abbrev S4x256x256x200 : Shape := ⟨4, ![4, 256, 256, 200]⟩
abbrev S_ : Shape := ⟨0, ![]⟩

class Facts : Prop where
  bcast_S_S4x8x256x256x1 : S_.BroadcastsInDim S4x8x256x256x1 (![] : Fin 0 → Fin S4x8x256x256x1.rank)
  reducesTo_S4x8x256x256x1_S_d0_1_2_3_4 : S4x8x256x256x1.ReducesTo [0, 1, 2, 3, 4] S_
  h_S_ : 0 < S_.numel
  bcast_S_S4x256x256x200 : S_.BroadcastsInDim S4x256x256x200 (![] : Fin 0 → Fin S4x256x256x200.rank)
  reducesTo_S4x256x256x200_S_d0_1_2_3 : S4x256x256x200.ReducesTo [0, 1, 2, 3] S_

variable [Facts]

def fn {F : FTy → Type} [FloatOps F] (main_arg0 : FVec F S4x8x256x256x1 .f32) (main_arg1 : FVec F S4x256x256x200 .f32) : IVec S_ 1 :=
  let main_v0 : FVec F S4x8x256x256x1 .f32 := Host.absf main_arg0
  let main_cst : FVec F S_ .f32 := constant S_ .f32 0x7F800000#32
  let main_v1 : FVec F S4x8x256x256x1 .f32 := broadcastInDim S4x8x256x256x1 ![] bcast_S_S4x8x256x256x1 main_cst
  let main_v2 : IVec S4x8x256x256x1 1 := cmpf .olt main_v0 main_v1
  let main_c : IVec S_ 1 := constantI S_ 1 1#1
  let main_v3 : IVec S_ 1 := (fun x v => Host.reduce IntOp.andi x v reducesTo_S4x8x256x256x1_S_d0_1_2_3_4 h_S_) main_v2 main_c
  let main_v4 : FVec F S4x256x256x200 .f32 := Host.absf main_arg1
  let main_cst_0 : FVec F S_ .f32 := constant S_ .f32 0x7F800000#32
  let main_v5 : FVec F S4x256x256x200 .f32 := broadcastInDim S4x256x256x200 ![] bcast_S_S4x256x256x200 main_cst_0
  let main_v6 : IVec S4x256x256x200 1 := cmpf .olt main_v4 main_v5
  let main_c_1 : IVec S_ 1 := constantI S_ 1 1#1
  let main_v7 : IVec S_ 1 := (fun x v => Host.reduce IntOp.andi x v reducesTo_S4x256x256x200_S_d0_1_2_3 h_S_) main_v6 main_c_1
  let main_v8 : IVec S_ 1 := andi main_v3 main_v7
  main_v8
-- ==== Kernel.lean ====
abbrev S4x8x256x256x1 : Shape := ⟨5, ![4, 8, 256, 256, 1]⟩
abbrev S4x256x256x200 : Shape := ⟨4, ![4, 256, 256, 200]⟩
abbrev S4x8x256x256 : Shape := ⟨4, ![4, 8, 256, 256]⟩
abbrev S_ : Shape := ⟨0, ![]⟩
abbrev S4x8x260x260 : Shape := ⟨4, ![4, 8, 260, 260]⟩
abbrev S4x8x256x256x25 : Shape := ⟨5, ![4, 8, 256, 256, 25]⟩
abbrev S4x8x25x256x256 : Shape := ⟨5, ![4, 8, 25, 256, 256]⟩
abbrev S4x256x256 : Shape := ⟨3, ![4, 256, 256]⟩
abbrev S1x1x260x260 : Shape := ⟨4, ![1, 1, 260, 260]⟩
abbrev S1x1x25x256x256 : Shape := ⟨5, ![1, 1, 25, 256, 256]⟩
abbrev S1x1x256x256 : Shape := ⟨4, ![1, 1, 256, 256]⟩
abbrev S1x256x256 : Shape := ⟨3, ![1, 256, 256]⟩
abbrev S256x256 : Shape := ⟨2, ![256, 256]⟩
abbrev S1x1x1x256x256 : Shape := ⟨5, ![1, 1, 1, 256, 256]⟩
abbrev S4x256x256x1 : Shape := ⟨4, ![4, 256, 256, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x8x256x256x1, .f32⟩
  | .hbm, ⟨1, _⟩ => ⟨S4x256x256x200, .f32⟩
  | .hbm, ⟨2, _⟩ => ⟨S4x8x256x256, .f32⟩
  | .hbm, ⟨3, _⟩ => ⟨S_, .i32⟩
  | .hbm, ⟨4, _⟩ => ⟨S_, .f32⟩
  | .hbm, ⟨5, _⟩ => ⟨S4x8x260x260, .f32⟩
  | .hbm, ⟨6, _⟩ => ⟨S4x8x256x256x25, .f32⟩
  | .hbm, ⟨7, _⟩ => ⟨S4x8x25x256x256, .f32⟩
  | .hbm, ⟨8, _⟩ => ⟨S4x8x256x256, .f32⟩
  | .hbm, ⟨9, _⟩ => ⟨S4x256x256, .f32⟩
  | .hbm, ⟨10, _⟩ => ⟨S4x256x256x1, .f32⟩
  | .hbm, ⟨11, _⟩ => ⟨S4x8x256x256x1, .f32⟩
  | .local _ .vmem, ⟨0, _⟩ => ⟨S1x1x260x260, .f32⟩
  | .local _ .vmem, ⟨1, _⟩ => ⟨S1x1x260x260, .f32⟩
  | .local _ .vmem, ⟨2, _⟩ => ⟨S1x1x25x256x256, .f32⟩
  | .local _ .vmem, ⟨3, _⟩ => ⟨S1x1x25x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x256x256, .f32⟩
  | .local _ .vmem, ⟨7, _⟩ => ⟨S1x256x256, .f32⟩
  | .local _ .vmem, ⟨8, _⟩ => ⟨S256x256, .f32⟩
  | _, _ => ⟨S4x8x256x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v162 : BitVec 1 := Scalar.cmpi .eq arg1 c7_i32
  let v163 : BitVec 32 := Scalar.extui v162
  let c0_i32_209 : BitVec 32 := 0#32
  let v164 : BitVec 1 := Scalar.cmpi .ne v163 c0_i32_209
  v164

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x260x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x25x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x8x256x256x1_S4x8x256x256 : S4x8x256x256x1.ShapeCasts S4x8x256x256
  pads_S4x8x256x256_S4x8x260x260_000_000_220_220 : S4x8x256x256.Pads (![0, 0, 2, 2] : Fin 4 → Nat) ![0, 0, 2, 2] ![0, 0, 0, 0] S4x8x260x260
  h_S_ : 0 < S_.numel
  shapeCasts_S4x256x256x200_S4x8x256x256x25 : S4x256x256x200.ShapeCasts S4x8x256x256x25
  transposes_S4x8x256x256x25_S4x8x25x256x256_0_1_4_2_3 : S4x8x256x256x25.Transposes [0, 1, 4, 2, 3] S4x8x25x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1x260x260_S1x1x256x256_0_0_0_0 : ∀ a, (![0, 0, 0, 0] : Fin 4 → Nat) a + S1x1x256x256.size a ≤ S1x1x260x260.size a
  h_S1x1x256x256 : 0 < S1x1x256x256.numel
  shapeCasts_S1x1x256x256_S256x256 : S1x1x256x256.ShapeCasts S256x256
  inb_S1x1x25x256x256_S1x1x1x256x256_0_0_0_0_0 : ∀ a, (![0, 0, 0, 0, 0] : Fin 5 → Nat) a + S1x1x1x256x256.size a ≤ S1x1x25x256x256.size a
  h_S1x1x1x256x256 : 0 < S1x1x1x256x256.numel
  shapeCasts_S1x1x1x256x256_S256x256 : S1x1x1x256x256.ShapeCasts S256x256
  inb_S1x1x260x260_S1x1x256x256_0_0_0_1 : ∀ a, (![0, 0, 0, 1] : Fin 4 → Nat) a + S1x1x256x256.size a ≤ S1x1x260x260.size a
  inb_S1x1x25x256x256_S1x1x1x256x256_0_0_1_0_0 : ∀ a, (![0, 0, 1, 0, 0] : Fin 5 → Nat) a + S1x1x1x256x256.size a ≤ S1x1x25x256x256.size a
  inb_S1x1x260x260_S1x1x256x256_0_0_0_2 : ∀ a, (![0, 0, 0, 2] : Fin 4 → Nat) a + S1x1x256x256.size a ≤ S1x1x260x260.size a
  inb_S1x1x25x256x256_S1x1x1x256x256_0_0_2_0_0 : ∀ a, (![0, 0, 2, 0, 0] : Fin 5 → Nat) a + S1x1x1x256x256.size a ≤ S1x1x25x256x256.size a
  inb_S1x1x260x260_S1x1x256x256_0_0_0_3 : ∀ a, (![0, 0, 0, 3] : Fin 4 → Nat) a + S1x1x256x256.size a ≤ S1x1x260x260.size a
  inb_S1x1x25x256x256_S1x1x1x256x256_0_0_3_0_0 : ∀ a, (![0, 0, 3, 0, 0] : Fin 5 → Nat) a + S1x1x1x256x256.size a ≤ S1x1x25x256x256.size a
  inb_S1x1x260x260_S1x1x256x256_0_0_0_4 : ∀ a, (![0, 0, 0, 4] : Fin 4 → Nat) a + S1x1x256x256.size a ≤ S1x1x260x260.size a
  inb_S1x1x25x256x256_S1x1x1x256x256_0_0_4_0_0 : ∀ a, (![0, 0, 4, 0, 0] : Fin 5 → Nat) a + S1x1x1x256x256.size a ≤ S1x1x25x256x256.size a
  inb_S1x1x260x260_S1x1x256x256_0_0_1_0 : ∀ a, (![0, 0, 1, 0] : Fin 4 → Nat) a + S1x1x256x256.size a ≤ S1x1x260x260.size a
  inb_S1x1x25x256x256_S1x1x1x256x256_0_0_5_0_0 : ∀ a, (![0, 0, 5, 0, 0] : Fin 5 → Nat) a + S1x1x1x256x256.size a ≤ S1x1x25x256x256.size a
  inb_S1x1x260x260_S1x1x256x256_0_0_1_1 : ∀ a, (![0, 0, 1, 1] : Fin 4 → Nat) a + S1x1x256x256.size a ≤ S1x1x260x260.size a
  inb_S1x1x25x256x256_S1x1x1x256x256_0_0_6_0_0 : ∀ a, (![0, 0, 6, 0, 0] : Fin 5 → Nat) a + S1x1x1x256x256.size a ≤ S1x1x25x256x256.size a
  inb_S1x1x260x260_S1x1x256x256_0_0_1_2 : ∀ a, (![0, 0, 1, 2] : Fin 4 → Nat) a + S1x1x256x256.size a ≤ S1x1x260x260.size a
  inb_S1x1x25x256x256_S1x1x1x256x256_0_0_7_0_0 : ∀ a, (![0, 0, 7, 0, 0] : Fin 5 → Nat) a + S1x1x1x256x256.size a ≤ S1x1x25x256x256.size a
  inb_S1x1x260x260_S1x1x256x256_0_0_1_3 : ∀ a, (![0, 0, 1, 3] : Fin 4 → Nat) a + S1x1x256x256.size a ≤ S1x1x260x260.size a
  inb_S1x1x25x256x256_S1x1x1x256x256_0_0_8_0_0 : ∀ a, (![0, 0, 8, 0, 0] : Fin 5 → Nat) a + S1x1x1x256x256.size a ≤ S1x1x25x256x256.size a
  inb_S1x1x260x260_S1x1x256x256_0_0_1_4 : ∀ a, (![0, 0, 1, 4] : Fin 4 → Nat) a + S1x1x256x256.size a ≤ S1x1x260x260.size a
  inb_S1x1x25x256x256_S1x1x1x256x256_0_0_9_0_0 : ∀ a, (![0, 0, 9, 0, 0] : Fin 5 → Nat) a + S1x1x1x256x256.size a ≤ S1x1x25x256x256.size a
  inb_S1x1x260x260_S1x1x256x256_0_0_2_0 : ∀ a, (![0, 0, 2, 0] : Fin 4 → Nat) a + S1x1x256x256.size a ≤ S1x1x260x260.size a
  inb_S1x1x25x256x256_S1x1x1x256x256_0_0_10_0_0 : ∀ a, (![0, 0, 10, 0, 0] : Fin 5 → Nat) a + S1x1x1x256x256.size a ≤ S1x1x25x256x256.size a
  inb_S1x1x260x260_S1x1x256x256_0_0_2_1 : ∀ a, (![0, 0, 2, 1] : Fin 4 → Nat) a + S1x1x256x256.size a ≤ S1x1x260x260.size a
  inb_S1x1x25x256x256_S1x1x1x256x256_0_0_11_0_0 : ∀ a, (![0, 0, 11, 0, 0] : Fin 5 → Nat) a + S1x1x1x256x256.size a ≤ S1x1x25x256x256.size a
  inb_S1x1x260x260_S1x1x256x256_0_0_2_2 : ∀ a, (![0, 0, 2, 2] : Fin 4 → Nat) a + S1x1x256x256.size a ≤ S1x1x260x260.size a
  inb_S1x1x25x256x256_S1x1x1x256x256_0_0_12_0_0 : ∀ a, (![0, 0, 12, 0, 0] : Fin 5 → Nat) a + S1x1x1x256x256.size a ≤ S1x1x25x256x256.size a
  inb_S1x1x260x260_S1x1x256x256_0_0_2_3 : ∀ a, (![0, 0, 2, 3] : Fin 4 → Nat) a + S1x1x256x256.size a ≤ S1x1x260x260.size a
  inb_S1x1x25x256x256_S1x1x1x256x256_0_0_13_0_0 : ∀ a, (![0, 0, 13, 0, 0] : Fin 5 → Nat) a + S1x1x1x256x256.size a ≤ S1x1x25x256x256.size a
  inb_S1x1x260x260_S1x1x256x256_0_0_2_4 : ∀ a, (![0, 0, 2, 4] : Fin 4 → Nat) a + S1x1x256x256.size a ≤ S1x1x260x260.size a
  inb_S1x1x25x256x256_S1x1x1x256x256_0_0_14_0_0 : ∀ a, (![0, 0, 14, 0, 0] : Fin 5 → Nat) a + S1x1x1x256x256.size a ≤ S1x1x25x256x256.size a
  inb_S1x1x260x260_S1x1x256x256_0_0_3_0 : ∀ a, (![0, 0, 3, 0] : Fin 4 → Nat) a + S1x1x256x256.size a ≤ S1x1x260x260.size a
  inb_S1x1x25x256x256_S1x1x1x256x256_0_0_15_0_0 : ∀ a, (![0, 0, 15, 0, 0] : Fin 5 → Nat) a + S1x1x1x256x256.size a ≤ S1x1x25x256x256.size a
  inb_S1x1x260x260_S1x1x256x256_0_0_3_1 : ∀ a, (![0, 0, 3, 1] : Fin 4 → Nat) a + S1x1x256x256.size a ≤ S1x1x260x260.size a
  inb_S1x1x25x256x256_S1x1x1x256x256_0_0_16_0_0 : ∀ a, (![0, 0, 16, 0, 0] : Fin 5 → Nat) a + S1x1x1x256x256.size a ≤ S1x1x25x256x256.size a
  inb_S1x1x260x260_S1x1x256x256_0_0_3_2 : ∀ a, (![0, 0, 3, 2] : Fin 4 → Nat) a + S1x1x256x256.size a ≤ S1x1x260x260.size a
  inb_S1x1x25x256x256_S1x1x1x256x256_0_0_17_0_0 : ∀ a, (![0, 0, 17, 0, 0] : Fin 5 → Nat) a + S1x1x1x256x256.size a ≤ S1x1x25x256x256.size a
  inb_S1x1x260x260_S1x1x256x256_0_0_3_3 : ∀ a, (![0, 0, 3, 3] : Fin 4 → Nat) a + S1x1x256x256.size a ≤ S1x1x260x260.size a
  inb_S1x1x25x256x256_S1x1x1x256x256_0_0_18_0_0 : ∀ a, (![0, 0, 18, 0, 0] : Fin 5 → Nat) a + S1x1x1x256x256.size a ≤ S1x1x25x256x256.size a
  inb_S1x1x260x260_S1x1x256x256_0_0_3_4 : ∀ a, (![0, 0, 3, 4] : Fin 4 → Nat) a + S1x1x256x256.size a ≤ S1x1x260x260.size a
  inb_S1x1x25x256x256_S1x1x1x256x256_0_0_19_0_0 : ∀ a, (![0, 0, 19, 0, 0] : Fin 5 → Nat) a + S1x1x1x256x256.size a ≤ S1x1x25x256x256.size a
  inb_S1x1x260x260_S1x1x256x256_0_0_4_0 : ∀ a, (![0, 0, 4, 0] : Fin 4 → Nat) a + S1x1x256x256.size a ≤ S1x1x260x260.size a
  inb_S1x1x25x256x256_S1x1x1x256x256_0_0_20_0_0 : ∀ a, (![0, 0, 20, 0, 0] : Fin 5 → Nat) a + S1x1x1x256x256.size a ≤ S1x1x25x256x256.size a
  inb_S1x1x260x260_S1x1x256x256_0_0_4_1 : ∀ a, (![0, 0, 4, 1] : Fin 4 → Nat) a + S1x1x256x256.size a ≤ S1x1x260x260.size a
  inb_S1x1x25x256x256_S1x1x1x256x256_0_0_21_0_0 : ∀ a, (![0, 0, 21, 0, 0] : Fin 5 → Nat) a + S1x1x1x256x256.size a ≤ S1x1x25x256x256.size a
  inb_S1x1x260x260_S1x1x256x256_0_0_4_2 : ∀ a, (![0, 0, 4, 2] : Fin 4 → Nat) a + S1x1x256x256.size a ≤ S1x1x260x260.size a
  inb_S1x1x25x256x256_S1x1x1x256x256_0_0_22_0_0 : ∀ a, (![0, 0, 22, 0, 0] : Fin 5 → Nat) a + S1x1x1x256x256.size a ≤ S1x1x25x256x256.size a
  inb_S1x1x260x260_S1x1x256x256_0_0_4_3 : ∀ a, (![0, 0, 4, 3] : Fin 4 → Nat) a + S1x1x256x256.size a ≤ S1x1x260x260.size a
  inb_S1x1x25x256x256_S1x1x1x256x256_0_0_23_0_0 : ∀ a, (![0, 0, 23, 0, 0] : Fin 5 → Nat) a + S1x1x1x256x256.size a ≤ S1x1x25x256x256.size a
  inb_S1x1x260x260_S1x1x256x256_0_0_4_4 : ∀ a, (![0, 0, 4, 4] : Fin 4 → Nat) a + S1x1x256x256.size a ≤ S1x1x260x260.size a
  inb_S1x1x25x256x256_S1x1x1x256x256_0_0_24_0_0 : ∀ a, (![0, 0, 24, 0, 0] : Fin 5 → Nat) a + S1x1x1x256x256.size a ≤ S1x1x25x256x256.size a
  inb_S1x1x256x256_S1x1x256x256_0_0_0_0 : ∀ a, (![0, 0, 0, 0] : Fin 4 → Nat) a + S1x1x256x256.size a ≤ S1x1x256x256.size a
  shapeCasts_S256x256_S1x1x256x256 : S256x256.ShapeCasts S1x1x256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  bcast_S4x256x256_S4x256x256x1_0_1_2 : S4x256x256.BroadcastsInDim S4x256x256x1 (![0, 1, 2] : Fin 3 → Fin S4x256x256x1.rank)
  bcast_S4x8x256x256_S4x8x256x256x1_0_1_2_3 : S4x8x256x256.BroadcastsInDim S4x8x256x256x1 (![0, 1, 2, 3] : Fin 4 → Fin S4x8x256x256x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x260x260.size a ≤ S4x8x260x260.size a
  hwx0_0 : ∀ i : grid0.Coords, EltTy.bits .f32 = 32 ∨ (Rect.block (s := S4x8x260x260) S1x1x260x260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x25x256x256.size a ≤ S4x8x25x256x256.size a
  hwx0_1 : ∀ i : grid0.Coords, EltTy.bits .f32 = 32 ∨ (Rect.block (s := S4x8x25x256x256) S1x1x25x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x256.size a ≤ S4x8x256x256.size a
  hwx0_2 : ∀ i : grid0.Coords, EltTy.bits .f32 = 32 ∨ (Rect.block (s := S4x8x256x256) S1x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S4x256x256.size a
  hwx0_3 : ∀ i : grid0.Coords, EltTy.bits .f32 = 32 ∨ (Rect.block (s := S4x256x256) S1x256x256.size (cc0_transform_3 i) (hinb0_3 i)).WholeWords (EltTy.packing .f32)

variable [Facts₀]

abbrev win0_0 : Pipeline.Window sig grid0 :=
  Pipeline.Window.ofSpec (Memref.whole main_v1) S1x1x260x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x25x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8x256x256x1 : Shape := ⟨5, ![4, 8, 256, 256, 1]⟩
abbrev S4x256x256x200 : Shape := ⟨4, ![4, 256, 256, 200]⟩
abbrev S4x8x256x256x1x25 : Shape := ⟨6, ![4, 8, 256, 256, 1, 25]⟩
abbrev S_ : Shape := ⟨0, ![]⟩
abbrev S4x8x260x260x1 : Shape := ⟨5, ![4, 8, 260, 260, 1]⟩
abbrev S4x8x256x256x1x1 : Shape := ⟨6, ![4, 8, 256, 256, 1, 1]⟩
abbrev S4x8x256x256x1x16 : Shape := ⟨6, ![4, 8, 256, 256, 1, 16]⟩
abbrev S4x8x256x256x1x9 : Shape := ⟨6, ![4, 8, 256, 256, 1, 9]⟩
abbrev S4x256x256x1 : Shape := ⟨4, ![4, 256, 256, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x8x256x256x1, .f32⟩
  | .hbm, ⟨1, _⟩ => ⟨S4x256x256x200, .f32⟩
  | .hbm, ⟨2, _⟩ => ⟨S4x8x256x256x1x25, .f32⟩
  | .hbm, ⟨3, _⟩ => ⟨S_, .i32⟩
  | .hbm, ⟨4, _⟩ => ⟨S_, .f32⟩
  | .hbm, ⟨5, _⟩ => ⟨S4x8x260x260x1, .f32⟩
  | .hbm, ⟨6, _⟩ => ⟨S4x8x256x256x1, .f32⟩
  | .hbm, ⟨7, _⟩ => ⟨S4x8x256x256x1, .f32⟩
  | .hbm, ⟨8, _⟩ => ⟨S4x8x256x256x1, .f32⟩
  | .hbm, ⟨9, _⟩ => ⟨S4x8x256x256x1, .f32⟩
  | .hbm, ⟨10, _⟩ => ⟨S4x8x256x256x1, .f32⟩
  | .hbm, ⟨11, _⟩ => ⟨S4x8x256x256x1, .f32⟩
  | .hbm, ⟨12, _⟩ => ⟨S4x8x256x256x1, .f32⟩
  | .hbm, ⟨13, _⟩ => ⟨S4x8x256x256x1, .f32⟩
  | .hbm, ⟨14, _⟩ => ⟨S4x8x256x256x1, .f32⟩
  | .hbm, ⟨15, _⟩ => ⟨S4x8x256x256x1, .f32⟩
  | .hbm, ⟨16, _⟩ => ⟨S4x8x256x256x1, .f32⟩
  | .hbm, ⟨17, _⟩ => ⟨S4x8x256x256x1, .f32⟩
  | .hbm, ⟨18, _⟩ => ⟨S4x8x256x256x1, .f32⟩
  | .hbm, ⟨19, _⟩ => ⟨S4x8x256x256x1, .f32⟩
  | .hbm, ⟨20, _⟩ => ⟨S4x8x256x256x1, .f32⟩
  | .hbm, ⟨21, _⟩ => ⟨S4x8x256x256x1, .f32⟩
  | .hbm, ⟨22, _⟩ => ⟨S4x8x256x256x1, .f32⟩
  | .hbm, ⟨23, _⟩ => ⟨S4x8x256x256x1, .f32⟩
  | .hbm, ⟨24, _⟩ => ⟨S4x8x256x256x1, .f32⟩
  | .hbm, ⟨25, _⟩ => ⟨S4x8x256x256x1, .f32⟩
  | .hbm, ⟨26, _⟩ => ⟨S4x8x256x256x1, .f32⟩
  | .hbm, ⟨27, _⟩ => ⟨S4x8x256x256x1, .f32⟩
  | .hbm, ⟨28, _⟩ => ⟨S4x8x256x256x1, .f32⟩
  | .hbm, ⟨29, _⟩ => ⟨S4x8x256x256x1, .f32⟩
  | .hbm, ⟨30, _⟩ => ⟨S4x8x256x256x1, .f32⟩
  | .hbm, ⟨31, _⟩ => ⟨S4x8x256x256x1x1, .f32⟩
  | .hbm, ⟨32, _⟩ => ⟨S4x8x256x256x1x1, .f32⟩
  | .hbm, ⟨33, _⟩ => ⟨S4x8x256x256x1x1, .f32⟩
  | .hbm, ⟨34, _⟩ => ⟨S4x8x256x256x1x1, .f32⟩
  | .hbm, ⟨35, _⟩ => ⟨S4x8x256x256x1x1, .f32⟩
  | .hbm, ⟨36, _⟩ => ⟨S4x8x256x256x1x1, .f32⟩
  | .hbm, ⟨37, _⟩ => ⟨S4x8x256x256x1x1, .f32⟩
  | .hbm, ⟨38, _⟩ => ⟨S4x8x256x256x1x1, .f32⟩
  | .hbm, ⟨39, _⟩ => ⟨S4x8x256x256x1x1, .f32⟩
  | .hbm, ⟨40, _⟩ => ⟨S4x8x256x256x1x1, .f32⟩
  | .hbm, ⟨41, _⟩ => ⟨S4x8x256x256x1x1, .f32⟩
  | .hbm, ⟨42, _⟩ => ⟨S4x8x256x256x1x1, .f32⟩
  | .hbm, ⟨43, _⟩ => ⟨S4x8x256x256x1x1, .f32⟩
  | .hbm, ⟨44, _⟩ => ⟨S4x8x256x256x1x1, .f32⟩
  | .hbm, ⟨45, _⟩ => ⟨S4x8x256x256x1x1, .f32⟩
  | .hbm, ⟨46, _⟩ => ⟨S4x8x256x256x1x1, .f32⟩
  | .hbm, ⟨47, _⟩ => ⟨S4x8x256x256x1x1, .f32⟩
  | .hbm, ⟨48, _⟩ => ⟨S4x8x256x256x1x1, .f32⟩
  | .hbm, ⟨49, _⟩ => ⟨S4x8x256x256x1x1, .f32⟩
  | .hbm, ⟨50, _⟩ => ⟨S4x8x256x256x1x1, .f32⟩
  | .hbm, ⟨51, _⟩ => ⟨S4x8x256x256x1x1, .f32⟩
  | .hbm, ⟨52, _⟩ => ⟨S4x8x256x256x1x1, .f32⟩
  | .hbm, ⟨53, _⟩ => ⟨S4x8x256x256x1x1, .f32⟩
  | .hbm, ⟨54, _⟩ => ⟨S4x8x256x256x1x1, .f32⟩
  | .hbm, ⟨55, _⟩ => ⟨S4x8x256x256x1x1, .f32⟩
  | .hbm, ⟨56, _⟩ => ⟨S4x8x256x256x1x16, .f32⟩
  | .hbm, ⟨57, _⟩ => ⟨S4x8x256x256x1x9, .f32⟩
  | .hbm, ⟨58, _⟩ => ⟨S4x8x256x256x1x25, .f32⟩
  | .hbm, ⟨59, _⟩ => ⟨S4x8x256x256x1x25, .f32⟩
  | .hbm, ⟨60, _⟩ => ⟨S_, .f32⟩
  | .hbm, ⟨61, _⟩ => ⟨S4x8x256x256x1, .f32⟩
  | .hbm, ⟨62, _⟩ => ⟨S_, .f32⟩
  | .hbm, ⟨63, _⟩ => ⟨S4x256x256x1, .f32⟩
  | .hbm, ⟨64, _⟩ => ⟨S_, .f32⟩
  | .hbm, ⟨65, _⟩ => ⟨S4x256x256x1, .f32⟩
  | .hbm, ⟨66, _⟩ => ⟨S4x256x256x1, .f32⟩
  | _, _ => ⟨S4x8x256x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst : Ref sig .tc := ⟨.hbm, 60, rfl⟩
abbrev main_v56 : Ref sig .tc := ⟨.hbm, 61, rfl⟩
abbrev main_cst_0 : Ref sig .tc := ⟨.hbm, 62, rfl⟩
abbrev main_v57 : Ref sig .tc := ⟨.hbm, 63, rfl⟩
abbrev main_cst_1 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]

class Facts₀ : Prop where
  shapeCasts_S4x256x256x200_S4x8x256x256x1x25 : S4x256x256x200.ShapeCasts S4x8x256x256x1x25
  pads_S4x8x256x256x1_S4x8x260x260x1_000_000_220_220_000 : S4x8x256x256x1.Pads (![0, 0, 2, 2, 0] : Fin 5 → Nat) ![0, 0, 2, 2, 0] ![0, 0, 0, 0, 0] S4x8x260x260x1
  h_S_ : 0 < S_.numel
  slices_S4x8x260x260x1_S4x8x256x256x1_0_0_0_0_0 : S4x8x260x260x1.Slices ![0, 0, 0, 0, 0] S4x8x256x256x1
  slices_S4x8x260x260x1_S4x8x256x256x1_0_0_0_1_0 : S4x8x260x260x1.Slices ![0, 0, 0, 1, 0] S4x8x256x256x1
  slices_S4x8x260x260x1_S4x8x256x256x1_0_0_0_2_0 : S4x8x260x260x1.Slices ![0, 0, 0, 2, 0] S4x8x256x256x1
  slices_S4x8x260x260x1_S4x8x256x256x1_0_0_0_3_0 : S4x8x260x260x1.Slices ![0, 0, 0, 3, 0] S4x8x256x256x1
  slices_S4x8x260x260x1_S4x8x256x256x1_0_0_0_4_0 : S4x8x260x260x1.Slices ![0, 0, 0, 4, 0] S4x8x256x256x1
  slices_S4x8x260x260x1_S4x8x256x256x1_0_0_1_0_0 : S4x8x260x260x1.Slices ![0, 0, 1, 0, 0] S4x8x256x256x1
  slices_S4x8x260x260x1_S4x8x256x256x1_0_0_1_1_0 : S4x8x260x260x1.Slices ![0, 0, 1, 1, 0] S4x8x256x256x1
  slices_S4x8x260x260x1_S4x8x256x256x1_0_0_1_2_0 : S4x8x260x260x1.Slices ![0, 0, 1, 2, 0] S4x8x256x256x1
  slices_S4x8x260x260x1_S4x8x256x256x1_0_0_1_3_0 : S4x8x260x260x1.Slices ![0, 0, 1, 3, 0] S4x8x256x256x1
  slices_S4x8x260x260x1_S4x8x256x256x1_0_0_1_4_0 : S4x8x260x260x1.Slices ![0, 0, 1, 4, 0] S4x8x256x256x1
  slices_S4x8x260x260x1_S4x8x256x256x1_0_0_2_0_0 : S4x8x260x260x1.Slices ![0, 0, 2, 0, 0] S4x8x256x256x1
  slices_S4x8x260x260x1_S4x8x256x256x1_0_0_2_1_0 : S4x8x260x260x1.Slices ![0, 0, 2, 1, 0] S4x8x256x256x1
  slices_S4x8x260x260x1_S4x8x256x256x1_0_0_2_2_0 : S4x8x260x260x1.Slices ![0, 0, 2, 2, 0] S4x8x256x256x1
  slices_S4x8x260x260x1_S4x8x256x256x1_0_0_2_3_0 : S4x8x260x260x1.Slices ![0, 0, 2, 3, 0] S4x8x256x256x1
  slices_S4x8x260x260x1_S4x8x256x256x1_0_0_2_4_0 : S4x8x260x260x1.Slices ![0, 0, 2, 4, 0] S4x8x256x256x1
  slices_S4x8x260x260x1_S4x8x256x256x1_0_0_3_0_0 : S4x8x260x260x1.Slices ![0, 0, 3, 0, 0] S4x8x256x256x1
  slices_S4x8x260x260x1_S4x8x256x256x1_0_0_3_1_0 : S4x8x260x260x1.Slices ![0, 0, 3, 1, 0] S4x8x256x256x1
  slices_S4x8x260x260x1_S4x8x256x256x1_0_0_3_2_0 : S4x8x260x260x1.Slices ![0, 0, 3, 2, 0] S4x8x256x256x1
  slices_S4x8x260x260x1_S4x8x256x256x1_0_0_3_3_0 : S4x8x260x260x1.Slices ![0, 0, 3, 3, 0] S4x8x256x256x1
  slices_S4x8x260x260x1_S4x8x256x256x1_0_0_3_4_0 : S4x8x260x260x1.Slices ![0, 0, 3, 4, 0] S4x8x256x256x1
  slices_S4x8x260x260x1_S4x8x256x256x1_0_0_4_0_0 : S4x8x260x260x1.Slices ![0, 0, 4, 0, 0] S4x8x256x256x1
  slices_S4x8x260x260x1_S4x8x256x256x1_0_0_4_1_0 : S4x8x260x260x1.Slices ![0, 0, 4, 1, 0] S4x8x256x256x1
  slices_S4x8x260x260x1_S4x8x256x256x1_0_0_4_2_0 : S4x8x260x260x1.Slices ![0, 0, 4, 2, 0] S4x8x256x256x1
  slices_S4x8x260x260x1_S4x8x256x256x1_0_0_4_3_0 : S4x8x260x260x1.Slices ![0, 0, 4, 3, 0] S4x8x256x256x1
  slices_S4x8x260x260x1_S4x8x256x256x1_0_0_4_4_0 : S4x8x260x260x1.Slices ![0, 0, 4, 4, 0] S4x8x256x256x1
  bcast_S4x8x256x256x1_S4x8x256x256x1x1_0_1_2_3_4 : S4x8x256x256x1.BroadcastsInDim S4x8x256x256x1x1 (![0, 1, 2, 3, 4] : Fin 5 → Fin S4x8x256x256x1x1.rank)
  concatenates_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x16_d5 : Shape.Concatenates [S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1] S4x8x256x256x1x16 5
  concatenates_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x9_d5 : Shape.Concatenates [S4x8x256x256x1x1, S4x8x256x256x1x1, S4x8x256x256x1x1, S4x8x256x256x1x1, S4x8x256x256x1x1, S4x8x256x256x1x1, S4x8x256x256x1x1, S4x8x256x256x1x1, S4x8x256x256x1x1] S4x8x256x256x1x9 5
  concatenates_S4x8x256x256x1x16_S4x8x256x256x1x9_S4x8x256x256x1x25_d5 : Shape.Concatenates [S4x8x256x256x1x16, S4x8x256x256x1x9] S4x8x256x256x1x25 5
  reducesTo_S4x8x256x256x1x25_S4x8x256x256x1_d5 : S4x8x256x256x1x25.ReducesTo [5] S4x8x256x256x1
  reducesTo_S4x8x256x256x1_S4x256x256x1_d1 : S4x8x256x256x1.ReducesTo [1] S4x256x256x1
  bcast_S_S4x256x256x1 : S_.BroadcastsInDim S4x256x256x1 (![] : Fin 0 → Fin S4x256x256x1.rank)

variable [Facts₀]

class Facts : Prop extends Facts₀ where

variable [Facts]
-- ==== Proof.Spec.lean ====
/-
  The mathematics of the burst filter, stated once with no program in sight.

  A burst of 8 frames per batch entry (4 entries), each frame 256 x 256 and zero-padded to 260 x 260, is filtered
  pixel by pixel with a 5 x 5 kernel that itself varies with the pixel: 25 taps per pixel.  Tap `k` of the pixel
  `(y, x)` multiplies the padded frame at `(y + k / 5, x + k % 5)`.  The per-frame prediction is the sum of the 25
  products; the burst prediction is the mean of the 8 per-frame predictions, i.e. their sum times 1/8.

  Everything is over the extended reals.  The only laws used are that addition there is commutative and
  associative with unit `0` (so a sum taken term by term from `0`, in any grouping, is the finite sum), and that
  dividing by the real `8` is multiplying by the real `1/8` on every extended real.  Neither needs finiteness.
-/
import Idealize.ShloMosaic.PureOps.Ideal
import Idealize.ShloMosaic.Lib.ValueIdx

noncomputable section

open scoped BigOperators

namespace Cert.Burst

open Idealize.ShloMosaic

/-- The padded row that tap `k` of output row `y` reads: `y + k / 5`. -/
def rowOf (y : Fin 256) (k : Fin 25) : Fin 260 := ⟨y.val + k.val / 5, by omega⟩

/-- The padded column that tap `k` of output column `x` reads: `x + k % 5`. -/
def colOf (x : Fin 256) (k : Fin 25) : Fin 260 := ⟨x.val + k.val % 5, by omega⟩

/-- The per-frame prediction at one pixel: the 25 taps `C b n y x k` against the padded frame `P b n`. -/
def pred (C : Fin 4 → Fin 8 → Fin 256 → Fin 256 → Fin 25 → EReal) (P : Fin 4 → Fin 8 → Fin 260 → Fin 260 → EReal)
    (b : Fin 4) (n : Fin 8) (y x : Fin 256) : EReal :=
  ∑ k : Fin 25, C b n y x k * P b n (rowOf y k) (colOf x k)

/-- The burst prediction at one pixel: the mean over the 8 frames, as the sum times `1/8`. -/
def mean (C : Fin 4 → Fin 8 → Fin 256 → Fin 256 → Fin 25 → EReal) (P : Fin 4 → Fin 8 → Fin 260 → Fin 260 → EReal)
    (b : Fin 4) (y x : Fin 256) : EReal :=
  (∑ n : Fin 8, pred C P b n y x) * (((1 / 8 : ℝ) : ℝ) : EReal)

/-- The f32 word `0x3E000000` denotes the real `1/8`. -/
theorem ofBits_eighth : Ideal.ofBits .f32 0x3E000000#32 = (((1 / 8 : ℝ) : ℝ) : EReal) := by
  simp [Ideal.ofBits, Ideal.ieee, -EReal.coe_mul]; norm_num

/-- The f32 word `0x41000000` denotes the real `8`. -/
theorem ofBits_eight : Ideal.ofBits .f32 0x41000000#32 = ((8 : ℝ) : EReal) := by
  simp [Ideal.ofBits, Ideal.ieee, -EReal.coe_mul]; norm_num

/-- The f32 word `0` denotes `0`. -/
theorem ofBits_zero : Ideal.ofBits .f32 0x00000000#32 = 0 := by
  simp [Ideal.ofBits, Ideal.ieee]

/-- Dividing by the word `8.0` is multiplying by `1/8`, on every extended real. -/
theorem div_eight (s : EReal) : Ideal.div s (Ideal.ofBits .f32 0x41000000#32) = s * (((1 / 8 : ℝ) : ℝ) : EReal) := by
  rw [ofBits_eight]; exact Ideal.div_coe (by norm_num) s

end Cert.Burst

end
-- ==== Proof.RefValue.lean ====
import proofs.«158530_j88347477279316_1_alg».proof.Proof.Spec
import proofs.«158530_j88347477279316_1_alg».proof.Proof.Gen.ReferenceIdeal.Read
import Idealize.ShloMosaic.Lib.ValueIdx
import Idealize.ShloMosaic.Lib.ValueIdxRank6
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's taps: its reshape of the core array, read at (b, n, y, x, 0, k). -/
def coreR (a1 : (⟨S4x256x256x200, .f32⟩ : BufTy).Contents (Elt Ideal)) (b : Fin 4) (n : Fin 8) (y x : Fin 256) (k : Fin 25) : EReal :=
  val_main_v0 (F := Ideal) a1 (ix6 b n y x (0 : Fin 1) k)

/-- The reference's padded frame, read at (b, n, Y, X, 0). -/
def padR (a0 : (⟨S4x8x256x256x1, .f32⟩ : BufTy).Contents (Elt Ideal)) (b : Fin 4) (n : Fin 8) (Y X : Fin 260) : EReal :=
  val_main_v1 (F := Ideal) a0 (ix5 b n Y X (0 : Fin 1))

/-! ### The 25 shifted windows of the padded frame

Tap `k` reads the window of the padded frame whose origin is row `k / 5`, column `k % 5`: a unit-stride slice at
those offsets, given a trailing unit axis.  Read at the pixel `(y, x)` it is the padded frame at
`(y + k / 5, x + k % 5)`. -/

/-- Window 0: the padded frame shifted down by 0 rows and right by 0 columns (0 = 5 * 0 + 0). -/
theorem piece_0 (a0 : (⟨S4x8x256x256x1, .f32⟩ : BufTy).Contents (Elt Ideal)) (b : Fin 4) (n : Fin 8) (y x : Fin 256) :
    val_main_v27 (F := Ideal) a0 (ix6 b n y x (0 : Fin 1) (0 : Fin 1))
      = padR a0 b n (Cert.Burst.rowOf y ⟨0, by omega⟩) (Cert.Burst.colOf x ⟨0, by omega⟩) := by
  rw [val_main_v27_apply, val_main_v2_apply]
  unfold padR
  refine congrArg (val_main_v1 (F := Ideal) a0) (funext fun a => Fin.ext ?_)
  match a with
  | ⟨0, _⟩ => rfl
  | ⟨1, _⟩ => rfl
  | ⟨2, _⟩ => show y.val = y.val + 0 / 5; omega
  | ⟨3, _⟩ => show x.val = x.val + 0 % 5; omega
  | ⟨4, _⟩ => rfl

/-- Window 1: the padded frame shifted down by 0 rows and right by 1 columns (1 = 5 * 0 + 1). -/
theorem piece_1 (a0 : (⟨S4x8x256x256x1, .f32⟩ : BufTy).Contents (Elt Ideal)) (b : Fin 4) (n : Fin 8) (y x : Fin 256) :
    val_main_v28 (F := Ideal) a0 (ix6 b n y x (0 : Fin 1) (0 : Fin 1))
      = padR a0 b n (Cert.Burst.rowOf y ⟨1, by omega⟩) (Cert.Burst.colOf x ⟨1, by omega⟩) := by
  rw [val_main_v28_apply, val_main_v3_apply]
  unfold padR
  refine congrArg (val_main_v1 (F := Ideal) a0) (funext fun a => Fin.ext ?_)
  match a with
  | ⟨0, _⟩ => rfl
  | ⟨1, _⟩ => rfl
  | ⟨2, _⟩ => show y.val = y.val + 1 / 5; omega
  | ⟨3, _⟩ => show 1 + x.val = x.val + 1 % 5; omega
  | ⟨4, _⟩ => rfl

/-- Window 2: the padded frame shifted down by 0 rows and right by 2 columns (2 = 5 * 0 + 2). -/
theorem piece_2 (a0 : (⟨S4x8x256x256x1, .f32⟩ : BufTy).Contents (Elt Ideal)) (b : Fin 4) (n : Fin 8) (y x : Fin 256) :
    val_main_v29 (F := Ideal) a0 (ix6 b n y x (0 : Fin 1) (0 : Fin 1))
      = padR a0 b n (Cert.Burst.rowOf y ⟨2, by omega⟩) (Cert.Burst.colOf x ⟨2, by omega⟩) := by
  rw [val_main_v29_apply, val_main_v4_apply]
  unfold padR
  refine congrArg (val_main_v1 (F := Ideal) a0) (funext fun a => Fin.ext ?_)
  match a with
  | ⟨0, _⟩ => rfl
  | ⟨1, _⟩ => rfl
  | ⟨2, _⟩ => show y.val = y.val + 2 / 5; omega
  | ⟨3, _⟩ => show 2 + x.val = x.val + 2 % 5; omega
  | ⟨4, _⟩ => rfl

/-- Window 3: the padded frame shifted down by 0 rows and right by 3 columns (3 = 5 * 0 + 3). -/
theorem piece_3 (a0 : (⟨S4x8x256x256x1, .f32⟩ : BufTy).Contents (Elt Ideal)) (b : Fin 4) (n : Fin 8) (y x : Fin 256) :
    val_main_v30 (F := Ideal) a0 (ix6 b n y x (0 : Fin 1) (0 : Fin 1))
      = padR a0 b n (Cert.Burst.rowOf y ⟨3, by omega⟩) (Cert.Burst.colOf x ⟨3, by omega⟩) := by
  rw [val_main_v30_apply, val_main_v5_apply]
  unfold padR
  refine congrArg (val_main_v1 (F := Ideal) a0) (funext fun a => Fin.ext ?_)
  match a with
  | ⟨0, _⟩ => rfl
  | ⟨1, _⟩ => rfl
  | ⟨2, _⟩ => show y.val = y.val + 3 / 5; omega
  | ⟨3, _⟩ => show 3 + x.val = x.val + 3 % 5; omega
  | ⟨4, _⟩ => rfl

/-- Window 4: the padded frame shifted down by 0 rows and right by 4 columns (4 = 5 * 0 + 4). -/
theorem piece_4 (a0 : (⟨S4x8x256x256x1, .f32⟩ : BufTy).Contents (Elt Ideal)) (b : Fin 4) (n : Fin 8) (y x : Fin 256) :
    val_main_v31 (F := Ideal) a0 (ix6 b n y x (0 : Fin 1) (0 : Fin 1))
      = padR a0 b n (Cert.Burst.rowOf y ⟨4, by omega⟩) (Cert.Burst.colOf x ⟨4, by omega⟩) := by
  rw [val_main_v31_apply, val_main_v6_apply]
  unfold padR
  refine congrArg (val_main_v1 (F := Ideal) a0) (funext fun a => Fin.ext ?_)
  match a with
  | ⟨0, _⟩ => rfl
  | ⟨1, _⟩ => rfl
  | ⟨2, _⟩ => show y.val = y.val + 4 / 5; omega
  | ⟨3, _⟩ => show 4 + x.val = x.val + 4 % 5; omega
  | ⟨4, _⟩ => rfl

/-- Window 5: the padded frame shifted down by 1 rows and right by 0 columns (5 = 5 * 1 + 0). -/
theorem piece_5 (a0 : (⟨S4x8x256x256x1, .f32⟩ : BufTy).Contents (Elt Ideal)) (b : Fin 4) (n : Fin 8) (y x : Fin 256) :
    val_main_v32 (F := Ideal) a0 (ix6 b n y x (0 : Fin 1) (0 : Fin 1))
      = padR a0 b n (Cert.Burst.rowOf y ⟨5, by omega⟩) (Cert.Burst.colOf x ⟨5, by omega⟩) := by
  rw [val_main_v32_apply, val_main_v7_apply]
  unfold padR
  refine congrArg (val_main_v1 (F := Ideal) a0) (funext fun a => Fin.ext ?_)
  match a with
  | ⟨0, _⟩ => rfl
  | ⟨1, _⟩ => rfl
  | ⟨2, _⟩ => show 1 + y.val = y.val + 5 / 5; omega
  | ⟨3, _⟩ => show x.val = x.val + 5 % 5; omega
  | ⟨4, _⟩ => rfl

/-- Window 6: the padded frame shifted down by 1 rows and right by 1 columns (6 = 5 * 1 + 1). -/
theorem piece_6 (a0 : (⟨S4x8x256x256x1, .f32⟩ : BufTy).Contents (Elt Ideal)) (b : Fin 4) (n : Fin 8) (y x : Fin 256) :
    val_main_v33 (F := Ideal) a0 (ix6 b n y x (0 : Fin 1) (0 : Fin 1))
      = padR a0 b n (Cert.Burst.rowOf y ⟨6, by omega⟩) (Cert.Burst.colOf x ⟨6, by omega⟩) := by
  rw [val_main_v33_apply, val_main_v8_apply]
  unfold padR
  refine congrArg (val_main_v1 (F := Ideal) a0) (funext fun a => Fin.ext ?_)
  match a with
  | ⟨0, _⟩ => rfl
  | ⟨1, _⟩ => rfl
  | ⟨2, _⟩ => show 1 + y.val = y.val + 6 / 5; omega
  | ⟨3, _⟩ => show 1 + x.val = x.val + 6 % 5; omega
  | ⟨4, _⟩ => rfl

/-- Window 7: the padded frame shifted down by 1 rows and right by 2 columns (7 = 5 * 1 + 2). -/
theorem piece_7 (a0 : (⟨S4x8x256x256x1, .f32⟩ : BufTy).Contents (Elt Ideal)) (b : Fin 4) (n : Fin 8) (y x : Fin 256) :
    val_main_v34 (F := Ideal) a0 (ix6 b n y x (0 : Fin 1) (0 : Fin 1))
      = padR a0 b n (Cert.Burst.rowOf y ⟨7, by omega⟩) (Cert.Burst.colOf x ⟨7, by omega⟩) := by
  rw [val_main_v34_apply, val_main_v9_apply]
  unfold padR
  refine congrArg (val_main_v1 (F := Ideal) a0) (funext fun a => Fin.ext ?_)
  match a with
  | ⟨0, _⟩ => rfl
  | ⟨1, _⟩ => rfl
  | ⟨2, _⟩ => show 1 + y.val = y.val + 7 / 5; omega
  | ⟨3, _⟩ => show 2 + x.val = x.val + 7 % 5; omega
  | ⟨4, _⟩ => rfl

/-- Window 8: the padded frame shifted down by 1 rows and right by 3 columns (8 = 5 * 1 + 3). -/
theorem piece_8 (a0 : (⟨S4x8x256x256x1, .f32⟩ : BufTy).Contents (Elt Ideal)) (b : Fin 4) (n : Fin 8) (y x : Fin 256) :
    val_main_v35 (F := Ideal) a0 (ix6 b n y x (0 : Fin 1) (0 : Fin 1))
      = padR a0 b n (Cert.Burst.rowOf y ⟨8, by omega⟩) (Cert.Burst.colOf x ⟨8, by omega⟩) := by
  rw [val_main_v35_apply, val_main_v10_apply]
  unfold padR
  refine congrArg (val_main_v1 (F := Ideal) a0) (funext fun a => Fin.ext ?_)
  match a with
  | ⟨0, _⟩ => rfl
  | ⟨1, _⟩ => rfl
  | ⟨2, _⟩ => show 1 + y.val = y.val + 8 / 5; omega
  | ⟨3, _⟩ => show 3 + x.val = x.val + 8 % 5; omega
  | ⟨4, _⟩ => rfl

/-- Window 9: the padded frame shifted down by 1 rows and right by 4 columns (9 = 5 * 1 + 4). -/
theorem piece_9 (a0 : (⟨S4x8x256x256x1, .f32⟩ : BufTy).Contents (Elt Ideal)) (b : Fin 4) (n : Fin 8) (y x : Fin 256) :
    val_main_v36 (F := Ideal) a0 (ix6 b n y x (0 : Fin 1) (0 : Fin 1))
      = padR a0 b n (Cert.Burst.rowOf y ⟨9, by omega⟩) (Cert.Burst.colOf x ⟨9, by omega⟩) := by
  rw [val_main_v36_apply, val_main_v11_apply]
  unfold padR
  refine congrArg (val_main_v1 (F := Ideal) a0) (funext fun a => Fin.ext ?_)
  match a with
  | ⟨0, _⟩ => rfl
  | ⟨1, _⟩ => rfl
  | ⟨2, _⟩ => show 1 + y.val = y.val + 9 / 5; omega
  | ⟨3, _⟩ => show 4 + x.val = x.val + 9 % 5; omega
  | ⟨4, _⟩ => rfl

/-- Window 10: the padded frame shifted down by 2 rows and right by 0 columns (10 = 5 * 2 + 0). -/
theorem piece_10 (a0 : (⟨S4x8x256x256x1, .f32⟩ : BufTy).Contents (Elt Ideal)) (b : Fin 4) (n : Fin 8) (y x : Fin 256) :
    val_main_v37 (F := Ideal) a0 (ix6 b n y x (0 : Fin 1) (0 : Fin 1))
      = padR a0 b n (Cert.Burst.rowOf y ⟨10, by omega⟩) (Cert.Burst.colOf x ⟨10, by omega⟩) := by
  rw [val_main_v37_apply, val_main_v12_apply]
  unfold padR
  refine congrArg (val_main_v1 (F := Ideal) a0) (funext fun a => Fin.ext ?_)
  match a with
  | ⟨0, _⟩ => rfl
  | ⟨1, _⟩ => rfl
  | ⟨2, _⟩ => show 2 + y.val = y.val + 10 / 5; omega
  | ⟨3, _⟩ => show x.val = x.val + 10 % 5; omega
  | ⟨4, _⟩ => rfl

/-- Window 11: the padded frame shifted down by 2 rows and right by 1 columns (11 = 5 * 2 + 1). -/
theorem piece_11 (a0 : (⟨S4x8x256x256x1, .f32⟩ : BufTy).Contents (Elt Ideal)) (b : Fin 4) (n : Fin 8) (y x : Fin 256) :
    val_main_v38 (F := Ideal) a0 (ix6 b n y x (0 : Fin 1) (0 : Fin 1))
      = padR a0 b n (Cert.Burst.rowOf y ⟨11, by omega⟩) (Cert.Burst.colOf x ⟨11, by omega⟩) := by
  rw [val_main_v38_apply, val_main_v13_apply]
  unfold padR
  refine congrArg (val_main_v1 (F := Ideal) a0) (funext fun a => Fin.ext ?_)
  match a with
  | ⟨0, _⟩ => rfl
  | ⟨1, _⟩ => rfl
  | ⟨2, _⟩ => show 2 + y.val = y.val + 11 / 5; omega
  | ⟨3, _⟩ => show 1 + x.val = x.val + 11 % 5; omega
  | ⟨4, _⟩ => rfl

/-- Window 12: the padded frame shifted down by 2 rows and right by 2 columns (12 = 5 * 2 + 2). -/
theorem piece_12 (a0 : (⟨S4x8x256x256x1, .f32⟩ : BufTy).Contents (Elt Ideal)) (b : Fin 4) (n : Fin 8) (y x : Fin 256) :
    val_main_v39 (F := Ideal) a0 (ix6 b n y x (0 : Fin 1) (0 : Fin 1))
      = padR a0 b n (Cert.Burst.rowOf y ⟨12, by omega⟩) (Cert.Burst.colOf x ⟨12, by omega⟩) := by
  rw [val_main_v39_apply, val_main_v14_apply]
  unfold padR
  refine congrArg (val_main_v1 (F := Ideal) a0) (funext fun a => Fin.ext ?_)
  match a with
  | ⟨0, _⟩ => rfl
  | ⟨1, _⟩ => rfl
  | ⟨2, _⟩ => show 2 + y.val = y.val + 12 / 5; omega
  | ⟨3, _⟩ => show 2 + x.val = x.val + 12 % 5; omega
  | ⟨4, _⟩ => rfl

/-- Window 13: the padded frame shifted down by 2 rows and right by 3 columns (13 = 5 * 2 + 3). -/
theorem piece_13 (a0 : (⟨S4x8x256x256x1, .f32⟩ : BufTy).Contents (Elt Ideal)) (b : Fin 4) (n : Fin 8) (y x : Fin 256) :
    val_main_v40 (F := Ideal) a0 (ix6 b n y x (0 : Fin 1) (0 : Fin 1))
      = padR a0 b n (Cert.Burst.rowOf y ⟨13, by omega⟩) (Cert.Burst.colOf x ⟨13, by omega⟩) := by
  rw [val_main_v40_apply, val_main_v15_apply]
  unfold padR
  refine congrArg (val_main_v1 (F := Ideal) a0) (funext fun a => Fin.ext ?_)
  match a with
  | ⟨0, _⟩ => rfl
  | ⟨1, _⟩ => rfl
  | ⟨2, _⟩ => show 2 + y.val = y.val + 13 / 5; omega
  | ⟨3, _⟩ => show 3 + x.val = x.val + 13 % 5; omega
  | ⟨4, _⟩ => rfl

/-- Window 14: the padded frame shifted down by 2 rows and right by 4 columns (14 = 5 * 2 + 4). -/
theorem piece_14 (a0 : (⟨S4x8x256x256x1, .f32⟩ : BufTy).Contents (Elt Ideal)) (b : Fin 4) (n : Fin 8) (y x : Fin 256) :
    val_main_v41 (F := Ideal) a0 (ix6 b n y x (0 : Fin 1) (0 : Fin 1))
      = padR a0 b n (Cert.Burst.rowOf y ⟨14, by omega⟩) (Cert.Burst.colOf x ⟨14, by omega⟩) := by
  rw [val_main_v41_apply, val_main_v16_apply]
  unfold padR
  refine congrArg (val_main_v1 (F := Ideal) a0) (funext fun a => Fin.ext ?_)
  match a with
  | ⟨0, _⟩ => rfl
  | ⟨1, _⟩ => rfl
  | ⟨2, _⟩ => show 2 + y.val = y.val + 14 / 5; omega
  | ⟨3, _⟩ => show 4 + x.val = x.val + 14 % 5; omega
  | ⟨4, _⟩ => rfl

/-- Window 15: the padded frame shifted down by 3 rows and right by 0 columns (15 = 5 * 3 + 0). -/
theorem piece_15 (a0 : (⟨S4x8x256x256x1, .f32⟩ : BufTy).Contents (Elt Ideal)) (b : Fin 4) (n : Fin 8) (y x : Fin 256) :
    val_main_v42 (F := Ideal) a0 (ix6 b n y x (0 : Fin 1) (0 : Fin 1))
      = padR a0 b n (Cert.Burst.rowOf y ⟨15, by omega⟩) (Cert.Burst.colOf x ⟨15, by omega⟩) := by
  rw [val_main_v42_apply, val_main_v17_apply]
  unfold padR
  refine congrArg (val_main_v1 (F := Ideal) a0) (funext fun a => Fin.ext ?_)
  match a with
  | ⟨0, _⟩ => rfl
  | ⟨1, _⟩ => rfl
  | ⟨2, _⟩ => show 3 + y.val = y.val + 15 / 5; omega
  | ⟨3, _⟩ => show x.val = x.val + 15 % 5; omega
  | ⟨4, _⟩ => rfl

/-- Window 16: the padded frame shifted down by 3 rows and right by 1 columns (16 = 5 * 3 + 1). -/
theorem piece_16 (a0 : (⟨S4x8x256x256x1, .f32⟩ : BufTy).Contents (Elt Ideal)) (b : Fin 4) (n : Fin 8) (y x : Fin 256) :
    val_main_v43 (F := Ideal) a0 (ix6 b n y x (0 : Fin 1) (0 : Fin 1))
      = padR a0 b n (Cert.Burst.rowOf y ⟨16, by omega⟩) (Cert.Burst.colOf x ⟨16, by omega⟩) := by
  rw [val_main_v43_apply, val_main_v18_apply]
  unfold padR
  refine congrArg (val_main_v1 (F := Ideal) a0) (funext fun a => Fin.ext ?_)
  match a with
  | ⟨0, _⟩ => rfl
  | ⟨1, _⟩ => rfl
  | ⟨2, _⟩ => show 3 + y.val = y.val + 16 / 5; omega
  | ⟨3, _⟩ => show 1 + x.val = x.val + 16 % 5; omega
  | ⟨4, _⟩ => rfl

/-- Window 17: the padded frame shifted down by 3 rows and right by 2 columns (17 = 5 * 3 + 2). -/
theorem piece_17 (a0 : (⟨S4x8x256x256x1, .f32⟩ : BufTy).Contents (Elt Ideal)) (b : Fin 4) (n : Fin 8) (y x : Fin 256) :
    val_main_v44 (F := Ideal) a0 (ix6 b n y x (0 : Fin 1) (0 : Fin 1))
      = padR a0 b n (Cert.Burst.rowOf y ⟨17, by omega⟩) (Cert.Burst.colOf x ⟨17, by omega⟩) := by
  rw [val_main_v44_apply, val_main_v19_apply]
  unfold padR
  refine congrArg (val_main_v1 (F := Ideal) a0) (funext fun a => Fin.ext ?_)
  match a with
  | ⟨0, _⟩ => rfl
  | ⟨1, _⟩ => rfl
  | ⟨2, _⟩ => show 3 + y.val = y.val + 17 / 5; omega
  | ⟨3, _⟩ => show 2 + x.val = x.val + 17 % 5; omega
  | ⟨4, _⟩ => rfl

/-- Window 18: the padded frame shifted down by 3 rows and right by 3 columns (18 = 5 * 3 + 3). -/
theorem piece_18 (a0 : (⟨S4x8x256x256x1, .f32⟩ : BufTy).Contents (Elt Ideal)) (b : Fin 4) (n : Fin 8) (y x : Fin 256) :
    val_main_v45 (F := Ideal) a0 (ix6 b n y x (0 : Fin 1) (0 : Fin 1))
      = padR a0 b n (Cert.Burst.rowOf y ⟨18, by omega⟩) (Cert.Burst.colOf x ⟨18, by omega⟩) := by
  rw [val_main_v45_apply, val_main_v20_apply]
  unfold padR
  refine congrArg (val_main_v1 (F := Ideal) a0) (funext fun a => Fin.ext ?_)
  match a with
  | ⟨0, _⟩ => rfl
  | ⟨1, _⟩ => rfl
  | ⟨2, _⟩ => show 3 + y.val = y.val + 18 / 5; omega
  | ⟨3, _⟩ => show 3 + x.val = x.val + 18 % 5; omega
  | ⟨4, _⟩ => rfl

/-- Window 19: the padded frame shifted down by 3 rows and right by 4 columns (19 = 5 * 3 + 4). -/
theorem piece_19 (a0 : (⟨S4x8x256x256x1, .f32⟩ : BufTy).Contents (Elt Ideal)) (b : Fin 4) (n : Fin 8) (y x : Fin 256) :
    val_main_v46 (F := Ideal) a0 (ix6 b n y x (0 : Fin 1) (0 : Fin 1))
      = padR a0 b n (Cert.Burst.rowOf y ⟨19, by omega⟩) (Cert.Burst.colOf x ⟨19, by omega⟩) := by
  rw [val_main_v46_apply, val_main_v21_apply]
  unfold padR
  refine congrArg (val_main_v1 (F := Ideal) a0) (funext fun a => Fin.ext ?_)
  match a with
  | ⟨0, _⟩ => rfl
  | ⟨1, _⟩ => rfl
  | ⟨2, _⟩ => show 3 + y.val = y.val + 19 / 5; omega
  | ⟨3, _⟩ => show 4 + x.val = x.val + 19 % 5; omega
  | ⟨4, _⟩ => rfl

/-- Window 20: the padded frame shifted down by 4 rows and right by 0 columns (20 = 5 * 4 + 0). -/
theorem piece_20 (a0 : (⟨S4x8x256x256x1, .f32⟩ : BufTy).Contents (Elt Ideal)) (b : Fin 4) (n : Fin 8) (y x : Fin 256) :
    val_main_v47 (F := Ideal) a0 (ix6 b n y x (0 : Fin 1) (0 : Fin 1))
      = padR a0 b n (Cert.Burst.rowOf y ⟨20, by omega⟩) (Cert.Burst.colOf x ⟨20, by omega⟩) := by
  rw [val_main_v47_apply, val_main_v22_apply]
  unfold padR
  refine congrArg (val_main_v1 (F := Ideal) a0) (funext fun a => Fin.ext ?_)
  match a with
  | ⟨0, _⟩ => rfl
  | ⟨1, _⟩ => rfl
  | ⟨2, _⟩ => show 4 + y.val = y.val + 20 / 5; omega
  | ⟨3, _⟩ => show x.val = x.val + 20 % 5; omega
  | ⟨4, _⟩ => rfl

/-- Window 21: the padded frame shifted down by 4 rows and right by 1 columns (21 = 5 * 4 + 1). -/
theorem piece_21 (a0 : (⟨S4x8x256x256x1, .f32⟩ : BufTy).Contents (Elt Ideal)) (b : Fin 4) (n : Fin 8) (y x : Fin 256) :
    val_main_v48 (F := Ideal) a0 (ix6 b n y x (0 : Fin 1) (0 : Fin 1))
      = padR a0 b n (Cert.Burst.rowOf y ⟨21, by omega⟩) (Cert.Burst.colOf x ⟨21, by omega⟩) := by
  rw [val_main_v48_apply, val_main_v23_apply]
  unfold padR
  refine congrArg (val_main_v1 (F := Ideal) a0) (funext fun a => Fin.ext ?_)
  match a with
  | ⟨0, _⟩ => rfl
  | ⟨1, _⟩ => rfl
  | ⟨2, _⟩ => show 4 + y.val = y.val + 21 / 5; omega
  | ⟨3, _⟩ => show 1 + x.val = x.val + 21 % 5; omega
  | ⟨4, _⟩ => rfl

/-- Window 22: the padded frame shifted down by 4 rows and right by 2 columns (22 = 5 * 4 + 2). -/
theorem piece_22 (a0 : (⟨S4x8x256x256x1, .f32⟩ : BufTy).Contents (Elt Ideal)) (b : Fin 4) (n : Fin 8) (y x : Fin 256) :
    val_main_v49 (F := Ideal) a0 (ix6 b n y x (0 : Fin 1) (0 : Fin 1))
      = padR a0 b n (Cert.Burst.rowOf y ⟨22, by omega⟩) (Cert.Burst.colOf x ⟨22, by omega⟩) := by
  rw [val_main_v49_apply, val_main_v24_apply]
  unfold padR
  refine congrArg (val_main_v1 (F := Ideal) a0) (funext fun a => Fin.ext ?_)
  match a with
  | ⟨0, _⟩ => rfl
  | ⟨1, _⟩ => rfl
  | ⟨2, _⟩ => show 4 + y.val = y.val + 22 / 5; omega
  | ⟨3, _⟩ => show 2 + x.val = x.val + 22 % 5; omega
  | ⟨4, _⟩ => rfl

/-- Window 23: the padded frame shifted down by 4 rows and right by 3 columns (23 = 5 * 4 + 3). -/
theorem piece_23 (a0 : (⟨S4x8x256x256x1, .f32⟩ : BufTy).Contents (Elt Ideal)) (b : Fin 4) (n : Fin 8) (y x : Fin 256) :
    val_main_v50 (F := Ideal) a0 (ix6 b n y x (0 : Fin 1) (0 : Fin 1))
      = padR a0 b n (Cert.Burst.rowOf y ⟨23, by omega⟩) (Cert.Burst.colOf x ⟨23, by omega⟩) := by
  rw [val_main_v50_apply, val_main_v25_apply]
  unfold padR
  refine congrArg (val_main_v1 (F := Ideal) a0) (funext fun a => Fin.ext ?_)
  match a with
  | ⟨0, _⟩ => rfl
  | ⟨1, _⟩ => rfl
  | ⟨2, _⟩ => show 4 + y.val = y.val + 23 / 5; omega
  | ⟨3, _⟩ => show 3 + x.val = x.val + 23 % 5; omega
  | ⟨4, _⟩ => rfl

/-- Window 24: the padded frame shifted down by 4 rows and right by 4 columns (24 = 5 * 4 + 4). -/
theorem piece_24 (a0 : (⟨S4x8x256x256x1, .f32⟩ : BufTy).Contents (Elt Ideal)) (b : Fin 4) (n : Fin 8) (y x : Fin 256) :
    val_main_v51 (F := Ideal) a0 (ix6 b n y x (0 : Fin 1) (0 : Fin 1))
      = padR a0 b n (Cert.Burst.rowOf y ⟨24, by omega⟩) (Cert.Burst.colOf x ⟨24, by omega⟩) := by
  rw [val_main_v51_apply, val_main_v26_apply]
  unfold padR
  refine congrArg (val_main_v1 (F := Ideal) a0) (funext fun a => Fin.ext ?_)
  match a with
  | ⟨0, _⟩ => rfl
  | ⟨1, _⟩ => rfl
  | ⟨2, _⟩ => show 4 + y.val = y.val + 24 / 5; omega
  | ⟨3, _⟩ => show 4 + x.val = x.val + 24 % 5; omega
  | ⟨4, _⟩ => rfl

/-! ### The windows joined along the tap axis

The first sixteen windows are joined into one array, the last nine into another, and the two are joined: position `k`
on the tap axis holds window `k`. -/

/-- Position `K` of the join of windows 0 … 15 is window `K`: the `K` unit pieces before it span `K` positions. -/
theorem v52_at_0 (a0 : (⟨S4x8x256x256x1, .f32⟩ : BufTy).Contents (Elt Ideal)) (b : Fin 4) (n : Fin 8) (y x : Fin 256) :
    val_main_v52 (F := Ideal) a0 (ix6 b n y x (0 : Fin 1) (⟨0, by omega⟩ : Fin 16))
      = padR a0 b n (Cert.Burst.rowOf y ⟨0, by omega⟩) (Cert.Burst.colOf x ⟨0, by omega⟩) := by
  unfold val_main_v52
  refine Eq.trans ?_ (piece_0 a0 b n y x)
  exact concatenate_apply_piece _ _ _ _ 0 (by show 0 < 16; omega) _ _ (by rfl) (by rfl) 0 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_1 (a0 : (⟨S4x8x256x256x1, .f32⟩ : BufTy).Contents (Elt Ideal)) (b : Fin 4) (n : Fin 8) (y x : Fin 256) :
    val_main_v52 (F := Ideal) a0 (ix6 b n y x (0 : Fin 1) (⟨1, by omega⟩ : Fin 16))
      = padR a0 b n (Cert.Burst.rowOf y ⟨1, by omega⟩) (Cert.Burst.colOf x ⟨1, by omega⟩) := by
  unfold val_main_v52
  refine Eq.trans ?_ (piece_1 a0 b n y x)
  exact concatenate_apply_piece _ _ _ _ 1 (by show 1 < 16; omega) _ _ (by rfl) (by rfl) 1 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_2 (a0 : (⟨S4x8x256x256x1, .f32⟩ : BufTy).Contents (Elt Ideal)) (b : Fin 4) (n : Fin 8) (y x : Fin 256) :
    val_main_v52 (F := Ideal) a0 (ix6 b n y x (0 : Fin 1) (⟨2, by omega⟩ : Fin 16))
      = padR a0 b n (Cert.Burst.rowOf y ⟨2, by omega⟩) (Cert.Burst.colOf x ⟨2, by omega⟩) := by
  unfold val_main_v52
  refine Eq.trans ?_ (piece_2 a0 b n y x)
  exact concatenate_apply_piece _ _ _ _ 2 (by show 2 < 16; omega) _ _ (by rfl) (by rfl) 2 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_3 (a0 : (⟨S4x8x256x256x1, .f32⟩ : BufTy).Contents (Elt Ideal)) (b : Fin 4) (n : Fin 8) (y x : Fin 256) :
    val_main_v52 (F := Ideal) a0 (ix6 b n y x (0 : Fin 1) (⟨3, by omega⟩ : Fin 16))
      = padR a0 b n (Cert.Burst.rowOf y ⟨3, by omega⟩) (Cert.Burst.colOf x ⟨3, by omega⟩) := by
  unfold val_main_v52
  refine Eq.trans ?_ (piece_3 a0 b n y x)
  exact concatenate_apply_piece _ _ _ _ 3 (by show 3 < 16; omega) _ _ (by rfl) (by rfl) 3 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_4 (a0 : (⟨S4x8x256x256x1, .f32⟩ : BufTy).Contents (Elt Ideal)) (b : Fin 4) (n : Fin 8) (y x : Fin 256) :
    val_main_v52 (F := Ideal) a0 (ix6 b n y x (0 : Fin 1) (⟨4, by omega⟩ : Fin 16))
      = padR a0 b n (Cert.Burst.rowOf y ⟨4, by omega⟩) (Cert.Burst.colOf x ⟨4, by omega⟩) := by
  unfold val_main_v52
  refine Eq.trans ?_ (piece_4 a0 b n y x)
  exact concatenate_apply_piece _ _ _ _ 4 (by show 4 < 16; omega) _ _ (by rfl) (by rfl) 4 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_5 (a0 : (⟨S4x8x256x256x1, .f32⟩ : BufTy).Contents (Elt Ideal)) (b : Fin 4) (n : Fin 8) (y x : Fin 256) :
    val_main_v52 (F := Ideal) a0 (ix6 b n y x (0 : Fin 1) (⟨5, by omega⟩ : Fin 16))
      = padR a0 b n (Cert.Burst.rowOf y ⟨5, by omega⟩) (Cert.Burst.colOf x ⟨5, by omega⟩) := by
  unfold val_main_v52
  refine Eq.trans ?_ (piece_5 a0 b n y x)
  exact concatenate_apply_piece _ _ _ _ 5 (by show 5 < 16; omega) _ _ (by rfl) (by rfl) 5 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_6 (a0 : (⟨S4x8x256x256x1, .f32⟩ : BufTy).Contents (Elt Ideal)) (b : Fin 4) (n : Fin 8) (y x : Fin 256) :
    val_main_v52 (F := Ideal) a0 (ix6 b n y x (0 : Fin 1) (⟨6, by omega⟩ : Fin 16))
      = padR a0 b n (Cert.Burst.rowOf y ⟨6, by omega⟩) (Cert.Burst.colOf x ⟨6, by omega⟩) := by
  unfold val_main_v52
  refine Eq.trans ?_ (piece_6 a0 b n y x)
  exact concatenate_apply_piece _ _ _ _ 6 (by show 6 < 16; omega) _ _ (by rfl) (by rfl) 6 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_7 (a0 : (⟨S4x8x256x256x1, .f32⟩ : BufTy).Contents (Elt Ideal)) (b : Fin 4) (n : Fin 8) (y x : Fin 256) :
    val_main_v52 (F := Ideal) a0 (ix6 b n y x (0 : Fin 1) (⟨7, by omega⟩ : Fin 16))
      = padR a0 b n (Cert.Burst.rowOf y ⟨7, by omega⟩) (Cert.Burst.colOf x ⟨7, by omega⟩) := by
  unfold val_main_v52
  refine Eq.trans ?_ (piece_7 a0 b n y x)
  exact concatenate_apply_piece _ _ _ _ 7 (by show 7 < 16; omega) _ _ (by rfl) (by rfl) 7 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_8 (a0 : (⟨S4x8x256x256x1, .f32⟩ : BufTy).Contents (Elt Ideal)) (b : Fin 4) (n : Fin 8) (y x : Fin 256) :
    val_main_v52 (F := Ideal) a0 (ix6 b n y x (0 : Fin 1) (⟨8, by omega⟩ : Fin 16))
      = padR a0 b n (Cert.Burst.rowOf y ⟨8, by omega⟩) (Cert.Burst.colOf x ⟨8, by omega⟩) := by
  unfold val_main_v52
  refine Eq.trans ?_ (piece_8 a0 b n y x)
  exact concatenate_apply_piece _ _ _ _ 8 (by show 8 < 16; omega) _ _ (by rfl) (by rfl) 8 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_9 (a0 : (⟨S4x8x256x256x1, .f32⟩ : BufTy).Contents (Elt Ideal)) (b : Fin 4) (n : Fin 8) (y x : Fin 256) :
    val_main_v52 (F := Ideal) a0 (ix6 b n y x (0 : Fin 1) (⟨9, by omega⟩ : Fin 16))
      = padR a0 b n (Cert.Burst.rowOf y ⟨9, by omega⟩) (Cert.Burst.colOf x ⟨9, by omega⟩) := by
  unfold val_main_v52
  refine Eq.trans ?_ (piece_9 a0 b n y x)
  exact concatenate_apply_piece _ _ _ _ 9 (by show 9 < 16; omega) _ _ (by rfl) (by rfl) 9 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_10 (a0 : (⟨S4x8x256x256x1, .f32⟩ : BufTy).Contents (Elt Ideal)) (b : Fin 4) (n : Fin 8) (y x : Fin 256) :
    val_main_v52 (F := Ideal) a0 (ix6 b n y x (0 : Fin 1) (⟨10, by omega⟩ : Fin 16))
      = padR a0 b n (Cert.Burst.rowOf y ⟨10, by omega⟩) (Cert.Burst.colOf x ⟨10, by omega⟩) := by
  unfold val_main_v52
  refine Eq.trans ?_ (piece_10 a0 b n y x)
  exact concatenate_apply_piece _ _ _ _ 10 (by show 10 < 16; omega) _ _ (by rfl) (by rfl) 10 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_11 (a0 : (⟨S4x8x256x256x1, .f32⟩ : BufTy).Contents (Elt Ideal)) (b : Fin 4) (n : Fin 8) (y x : Fin 256) :
    val_main_v52 (F := Ideal) a0 (ix6 b n y x (0 : Fin 1) (⟨11, by omega⟩ : Fin 16))
      = padR a0 b n (Cert.Burst.rowOf y ⟨11, by omega⟩) (Cert.Burst.colOf x ⟨11, by omega⟩) := by
  unfold val_main_v52
  refine Eq.trans ?_ (piece_11 a0 b n y x)
  exact concatenate_apply_piece _ _ _ _ 11 (by show 11 < 16; omega) _ _ (by rfl) (by rfl) 11 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_12 (a0 : (⟨S4x8x256x256x1, .f32⟩ : BufTy).Contents (Elt Ideal)) (b : Fin 4) (n : Fin 8) (y x : Fin 256) :
    val_main_v52 (F := Ideal) a0 (ix6 b n y x (0 : Fin 1) (⟨12, by omega⟩ : Fin 16))
      = padR a0 b n (Cert.Burst.rowOf y ⟨12, by omega⟩) (Cert.Burst.colOf x ⟨12, by omega⟩) := by
  unfold val_main_v52
  refine Eq.trans ?_ (piece_12 a0 b n y x)
  exact concatenate_apply_piece _ _ _ _ 12 (by show 12 < 16; omega) _ _ (by rfl) (by rfl) 12 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_13 (a0 : (⟨S4x8x256x256x1, .f32⟩ : BufTy).Contents (Elt Ideal)) (b : Fin 4) (n : Fin 8) (y x : Fin 256) :
    val_main_v52 (F := Ideal) a0 (ix6 b n y x (0 : Fin 1) (⟨13, by omega⟩ : Fin 16))
      = padR a0 b n (Cert.Burst.rowOf y ⟨13, by omega⟩) (Cert.Burst.colOf x ⟨13, by omega⟩) := by
  unfold val_main_v52
  refine Eq.trans ?_ (piece_13 a0 b n y x)
  exact concatenate_apply_piece _ _ _ _ 13 (by show 13 < 16; omega) _ _ (by rfl) (by rfl) 13 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_14 (a0 : (⟨S4x8x256x256x1, .f32⟩ : BufTy).Contents (Elt Ideal)) (b : Fin 4) (n : Fin 8) (y x : Fin 256) :
    val_main_v52 (F := Ideal) a0 (ix6 b n y x (0 : Fin 1) (⟨14, by omega⟩ : Fin 16))
      = padR a0 b n (Cert.Burst.rowOf y ⟨14, by omega⟩) (Cert.Burst.colOf x ⟨14, by omega⟩) := by
  unfold val_main_v52
  refine Eq.trans ?_ (piece_14 a0 b n y x)
  exact concatenate_apply_piece _ _ _ _ 14 (by show 14 < 16; omega) _ _ (by rfl) (by rfl) 14 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v52_at_15 (a0 : (⟨S4x8x256x256x1, .f32⟩ : BufTy).Contents (Elt Ideal)) (b : Fin 4) (n : Fin 8) (y x : Fin 256) :
    val_main_v52 (F := Ideal) a0 (ix6 b n y x (0 : Fin 1) (⟨15, by omega⟩ : Fin 16))
      = padR a0 b n (Cert.Burst.rowOf y ⟨15, by omega⟩) (Cert.Burst.colOf x ⟨15, by omega⟩) := by
  unfold val_main_v52
  refine Eq.trans ?_ (piece_15 a0 b n y x)
  exact concatenate_apply_piece _ _ _ _ 15 (by show 15 < 16; omega) _ _ (by rfl) (by rfl) 15 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

/-- Position `K` of the join of windows 16 … 24 is window `16 + K`. -/
theorem v53_at_0 (a0 : (⟨S4x8x256x256x1, .f32⟩ : BufTy).Contents (Elt Ideal)) (b : Fin 4) (n : Fin 8) (y x : Fin 256) :
    val_main_v53 (F := Ideal) a0 (ix6 b n y x (0 : Fin 1) (⟨0, by omega⟩ : Fin 9))
      = padR a0 b n (Cert.Burst.rowOf y ⟨16, by omega⟩) (Cert.Burst.colOf x ⟨16, by omega⟩) := by
  unfold val_main_v53
  refine Eq.trans ?_ (piece_16 a0 b n y x)
  exact concatenate_apply_piece _ _ _ _ 0 (by show 0 < 9; omega) _ _ (by rfl) (by rfl) 0 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_1 (a0 : (⟨S4x8x256x256x1, .f32⟩ : BufTy).Contents (Elt Ideal)) (b : Fin 4) (n : Fin 8) (y x : Fin 256) :
    val_main_v53 (F := Ideal) a0 (ix6 b n y x (0 : Fin 1) (⟨1, by omega⟩ : Fin 9))
      = padR a0 b n (Cert.Burst.rowOf y ⟨17, by omega⟩) (Cert.Burst.colOf x ⟨17, by omega⟩) := by
  unfold val_main_v53
  refine Eq.trans ?_ (piece_17 a0 b n y x)
  exact concatenate_apply_piece _ _ _ _ 1 (by show 1 < 9; omega) _ _ (by rfl) (by rfl) 1 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_2 (a0 : (⟨S4x8x256x256x1, .f32⟩ : BufTy).Contents (Elt Ideal)) (b : Fin 4) (n : Fin 8) (y x : Fin 256) :
    val_main_v53 (F := Ideal) a0 (ix6 b n y x (0 : Fin 1) (⟨2, by omega⟩ : Fin 9))
      = padR a0 b n (Cert.Burst.rowOf y ⟨18, by omega⟩) (Cert.Burst.colOf x ⟨18, by omega⟩) := by
  unfold val_main_v53
  refine Eq.trans ?_ (piece_18 a0 b n y x)
  exact concatenate_apply_piece _ _ _ _ 2 (by show 2 < 9; omega) _ _ (by rfl) (by rfl) 2 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_3 (a0 : (⟨S4x8x256x256x1, .f32⟩ : BufTy).Contents (Elt Ideal)) (b : Fin 4) (n : Fin 8) (y x : Fin 256) :
    val_main_v53 (F := Ideal) a0 (ix6 b n y x (0 : Fin 1) (⟨3, by omega⟩ : Fin 9))
      = padR a0 b n (Cert.Burst.rowOf y ⟨19, by omega⟩) (Cert.Burst.colOf x ⟨19, by omega⟩) := by
  unfold val_main_v53
  refine Eq.trans ?_ (piece_19 a0 b n y x)
  exact concatenate_apply_piece _ _ _ _ 3 (by show 3 < 9; omega) _ _ (by rfl) (by rfl) 3 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_4 (a0 : (⟨S4x8x256x256x1, .f32⟩ : BufTy).Contents (Elt Ideal)) (b : Fin 4) (n : Fin 8) (y x : Fin 256) :
    val_main_v53 (F := Ideal) a0 (ix6 b n y x (0 : Fin 1) (⟨4, by omega⟩ : Fin 9))
      = padR a0 b n (Cert.Burst.rowOf y ⟨20, by omega⟩) (Cert.Burst.colOf x ⟨20, by omega⟩) := by
  unfold val_main_v53
  refine Eq.trans ?_ (piece_20 a0 b n y x)
  exact concatenate_apply_piece _ _ _ _ 4 (by show 4 < 9; omega) _ _ (by rfl) (by rfl) 4 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_5 (a0 : (⟨S4x8x256x256x1, .f32⟩ : BufTy).Contents (Elt Ideal)) (b : Fin 4) (n : Fin 8) (y x : Fin 256) :
    val_main_v53 (F := Ideal) a0 (ix6 b n y x (0 : Fin 1) (⟨5, by omega⟩ : Fin 9))
      = padR a0 b n (Cert.Burst.rowOf y ⟨21, by omega⟩) (Cert.Burst.colOf x ⟨21, by omega⟩) := by
  unfold val_main_v53
  refine Eq.trans ?_ (piece_21 a0 b n y x)
  exact concatenate_apply_piece _ _ _ _ 5 (by show 5 < 9; omega) _ _ (by rfl) (by rfl) 5 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_6 (a0 : (⟨S4x8x256x256x1, .f32⟩ : BufTy).Contents (Elt Ideal)) (b : Fin 4) (n : Fin 8) (y x : Fin 256) :
    val_main_v53 (F := Ideal) a0 (ix6 b n y x (0 : Fin 1) (⟨6, by omega⟩ : Fin 9))
      = padR a0 b n (Cert.Burst.rowOf y ⟨22, by omega⟩) (Cert.Burst.colOf x ⟨22, by omega⟩) := by
  unfold val_main_v53
  refine Eq.trans ?_ (piece_22 a0 b n y x)
  exact concatenate_apply_piece _ _ _ _ 6 (by show 6 < 9; omega) _ _ (by rfl) (by rfl) 6 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_7 (a0 : (⟨S4x8x256x256x1, .f32⟩ : BufTy).Contents (Elt Ideal)) (b : Fin 4) (n : Fin 8) (y x : Fin 256) :
    val_main_v53 (F := Ideal) a0 (ix6 b n y x (0 : Fin 1) (⟨7, by omega⟩ : Fin 9))
      = padR a0 b n (Cert.Burst.rowOf y ⟨23, by omega⟩) (Cert.Burst.colOf x ⟨23, by omega⟩) := by
  unfold val_main_v53
  refine Eq.trans ?_ (piece_23 a0 b n y x)
  exact concatenate_apply_piece _ _ _ _ 7 (by show 7 < 9; omega) _ _ (by rfl) (by rfl) 7 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

theorem v53_at_8 (a0 : (⟨S4x8x256x256x1, .f32⟩ : BufTy).Contents (Elt Ideal)) (b : Fin 4) (n : Fin 8) (y x : Fin 256) :
    val_main_v53 (F := Ideal) a0 (ix6 b n y x (0 : Fin 1) (⟨8, by omega⟩ : Fin 9))
      = padR a0 b n (Cert.Burst.rowOf y ⟨24, by omega⟩) (Cert.Burst.colOf x ⟨24, by omega⟩) := by
  unfold val_main_v53
  refine Eq.trans ?_ (piece_24 a0 b n y x)
  exact concatenate_apply_piece _ _ _ _ 8 (by show 8 < 9; omega) _ _ (by rfl) (by rfl) 8 (by simp) (ix6 b n y x (0 : Fin 1) (0 : Fin 1))
    (by
    intro c
    match c with
    | ⟨0, _⟩ => exact fun _ => rfl
    | ⟨1, _⟩ => exact fun _ => rfl
    | ⟨2, _⟩ => exact fun _ => rfl
    | ⟨3, _⟩ => exact fun _ => rfl
    | ⟨4, _⟩ => exact fun _ => rfl
    | ⟨5, _⟩ => exact fun hne => absurd rfl hne) (by rfl)

/-- The join of windows 0 … 15 at tap position `k` is window `k`. -/
theorem v52_apply (a0 : (⟨S4x8x256x256x1, .f32⟩ : BufTy).Contents (Elt Ideal)) (b : Fin 4) (n : Fin 8) (y x : Fin 256) (k : Fin 16) :
    val_main_v52 (F := Ideal) a0 (ix6 b n y x (0 : Fin 1) k)
      = padR a0 b n (Cert.Burst.rowOf y ⟨k.val, by omega⟩) (Cert.Burst.colOf x ⟨k.val, by omega⟩) := by
  match k with
  | ⟨0, _⟩ => exact v52_at_0 a0 b n y x
  | ⟨1, _⟩ => exact v52_at_1 a0 b n y x
  | ⟨2, _⟩ => exact v52_at_2 a0 b n y x
  | ⟨3, _⟩ => exact v52_at_3 a0 b n y x
  | ⟨4, _⟩ => exact v52_at_4 a0 b n y x
  | ⟨5, _⟩ => exact v52_at_5 a0 b n y x
  | ⟨6, _⟩ => exact v52_at_6 a0 b n y x
  | ⟨7, _⟩ => exact v52_at_7 a0 b n y x
  | ⟨8, _⟩ => exact v52_at_8 a0 b n y x
  | ⟨9, _⟩ => exact v52_at_9 a0 b n y x
  | ⟨10, _⟩ => exact v52_at_10 a0 b n y x
  | ⟨11, _⟩ => exact v52_at_11 a0 b n y x
  | ⟨12, _⟩ => exact v52_at_12 a0 b n y x
  | ⟨13, _⟩ => exact v52_at_13 a0 b n y x
  | ⟨14, _⟩ => exact v52_at_14 a0 b n y x
  | ⟨15, _⟩ => exact v52_at_15 a0 b n y x
  | ⟨m + 16, h⟩ => exact absurd h (by omega)

/-- The join of windows 16 … 24 at position `k` is window `16 + k`. -/
theorem v53_apply (a0 : (⟨S4x8x256x256x1, .f32⟩ : BufTy).Contents (Elt Ideal)) (b : Fin 4) (n : Fin 8) (y x : Fin 256) (k : Fin 9) :
    val_main_v53 (F := Ideal) a0 (ix6 b n y x (0 : Fin 1) k)
      = padR a0 b n (Cert.Burst.rowOf y ⟨16 + k.val, by omega⟩) (Cert.Burst.colOf x ⟨16 + k.val, by omega⟩) := by
  match k with
  | ⟨0, _⟩ => exact v53_at_0 a0 b n y x
  | ⟨1, _⟩ => exact v53_at_1 a0 b n y x
  | ⟨2, _⟩ => exact v53_at_2 a0 b n y x
  | ⟨3, _⟩ => exact v53_at_3 a0 b n y x
  | ⟨4, _⟩ => exact v53_at_4 a0 b n y x
  | ⟨5, _⟩ => exact v53_at_5 a0 b n y x
  | ⟨6, _⟩ => exact v53_at_6 a0 b n y x
  | ⟨7, _⟩ => exact v53_at_7 a0 b n y x
  | ⟨8, _⟩ => exact v53_at_8 a0 b n y x
  | ⟨m + 9, h⟩ => exact absurd h (by omega)

/-- A tap position below 16 falls in the first join, at the same position. -/
theorem v54_left (a0 : (⟨S4x8x256x256x1, .f32⟩ : BufTy).Contents (Elt Ideal)) (b : Fin 4) (n : Fin 8) (y x : Fin 256) (k : Fin 16) :
    val_main_v54 (F := Ideal) a0 (ix6 b n y x (0 : Fin 1) (⟨k.val, by omega⟩ : Fin 25))
      = val_main_v52 (F := Ideal) a0 (ix6 b n y x (0 : Fin 1) k) := by
  unfold val_main_v54
  exact concatenate_pair_apply_left _ _ _ _ _ (by rfl) (ix6 b n y x (0 : Fin 1) k) (by
    intro c
    match c with
    | ⟨0, _⟩ => rfl
    | ⟨1, _⟩ => rfl
    | ⟨2, _⟩ => rfl
    | ⟨3, _⟩ => rfl
    | ⟨4, _⟩ => rfl
    | ⟨5, _⟩ => rfl)

/-- A tap position `16 + k` falls in the second join, at position `k`. -/
theorem v54_right (a0 : (⟨S4x8x256x256x1, .f32⟩ : BufTy).Contents (Elt Ideal)) (b : Fin 4) (n : Fin 8) (y x : Fin 256) (k : Fin 9) :
    val_main_v54 (F := Ideal) a0 (ix6 b n y x (0 : Fin 1) (⟨16 + k.val, by omega⟩ : Fin 25))
      = val_main_v53 (F := Ideal) a0 (ix6 b n y x (0 : Fin 1) k) := by
  unfold val_main_v54
  exact concatenate_pair_apply_right _ _ _ _ _ (by rfl) (by rfl) (ix6 b n y x (0 : Fin 1) k)
    (by
      intro c
      match c with
      | ⟨0, _⟩ => exact fun _ => rfl
      | ⟨1, _⟩ => exact fun _ => rfl
      | ⟨2, _⟩ => exact fun _ => rfl
      | ⟨3, _⟩ => exact fun _ => rfl
      | ⟨4, _⟩ => exact fun _ => rfl
      | ⟨5, _⟩ => exact fun hne => absurd rfl hne)
    (by show k.val + 16 = 16 + k.val; omega)

/-- The tap factor at a position given as a natural number. -/
theorem tap_nat (a0 : (⟨S4x8x256x256x1, .f32⟩ : BufTy).Contents (Elt Ideal)) (b : Fin 4) (n : Fin 8) (y x : Fin 256) (m : Nat) (hm : m < 25) :
    val_main_v54 (F := Ideal) a0 (ix6 b n y x (0 : Fin 1) (⟨m, hm⟩ : Fin 25))
      = padR a0 b n (Cert.Burst.rowOf y ⟨m, hm⟩) (Cert.Burst.colOf x ⟨m, hm⟩) := by
  by_cases h : m < 16
  · exact (v54_left a0 b n y x ⟨m, h⟩).trans (v52_apply a0 b n y x ⟨m, h⟩)
  · obtain ⟨j, rfl⟩ : ∃ j, m = 16 + j := ⟨m - 16, by omega⟩
    have hj : j < 9 := by omega
    exact (v54_right a0 b n y x ⟨j, hj⟩).trans (v53_apply a0 b n y x ⟨j, hj⟩)

/-- **The tap factor**: tap `k` of the pixel `(y, x)` multiplies the padded frame at `(y + k / 5, x + k % 5)`. -/
theorem tap (a0 : (⟨S4x8x256x256x1, .f32⟩ : BufTy).Contents (Elt Ideal)) (b : Fin 4) (n : Fin 8) (y x : Fin 256) (k : Fin 25) :
    val_main_v54 (F := Ideal) a0 (ix6 b n y x (0 : Fin 1) k)
      = padR a0 b n (Cert.Burst.rowOf y k) (Cert.Burst.colOf x k) :=
  tap_nat a0 b n y x k.val k.isLt

/-! ### The two results -/

/-- The per-frame prediction: the sum from `0` of the 25 products is the specification's `pred`. -/
theorem ref_pred (a0 : (⟨S4x8x256x256x1, .f32⟩ : BufTy).Contents (Elt Ideal)) (a1 : (⟨S4x256x256x200, .f32⟩ : BufTy).Contents (Elt Ideal))
    (b : Fin 4) (n : Fin 8) (y x : Fin 256) :
    val_main_v56 (F := Ideal) a0 a1 (ix5 b n y x (0 : Fin 1)) = Cert.Burst.pred (coreR a1) (padR a0) b n y x := by
  refine (val_main_v56_apply a0 a1 _).trans ?_
  rw [val_main_cst_apply, Ideal.ofBits_def, Cert.Burst.ofBits_zero, zero_add]
  unfold Cert.Burst.pred
  refine Finset.sum_congr rfl fun k _ => ?_
  have hi : idx_main_v56 (ix5 b n y x (0 : Fin 1)) k = ix6 b n y x (0 : Fin 1) k :=
    funext fun a => Fin.ext (by
      match a with
      | ⟨0, _⟩ => rfl | ⟨1, _⟩ => rfl | ⟨2, _⟩ => rfl | ⟨3, _⟩ => rfl | ⟨4, _⟩ => rfl | ⟨5, _⟩ => rfl)
  rw [hi, val_main_v55_apply, Ideal.mulf_def, tap]
  rfl

/-- The burst mean: the sum from `0` of the 8 per-frame predictions, divided by the word `8.0`, is the
    specification's `mean` (dividing by 8 is multiplying by 1/8). -/
theorem ref_mean (a0 : (⟨S4x8x256x256x1, .f32⟩ : BufTy).Contents (Elt Ideal)) (a1 : (⟨S4x256x256x200, .f32⟩ : BufTy).Contents (Elt Ideal))
    (b : Fin 4) (y x : Fin 256) :
    val_main_v59 (F := Ideal) a0 a1 (ix4 b y x (0 : Fin 1)) = Cert.Burst.mean (coreR a1) (padR a0) b y x := by
  rw [val_main_v59_apply, Ideal.hostDivf_def, val_main_v58_apply, val_main_cst_1_apply, Ideal.ofBits_def,
    Cert.Burst.div_eight]
  unfold Cert.Burst.mean
  refine congrArg (· * _) ?_
  refine (val_main_v57_apply a0 a1 _).trans ?_
  rw [val_main_cst_0_apply, Ideal.ofBits_def, Cert.Burst.ofBits_zero, zero_add]
  refine Finset.sum_congr rfl fun n _ => ?_
  have hi : idx_main_v57 (ix4 b y x (0 : Fin 1)) n = ix5 b n y x (0 : Fin 1) :=
    funext fun a => Fin.ext (by
      match a with
      | ⟨0, _⟩ => rfl | ⟨1, _⟩ => rfl | ⟨2, _⟩ => rfl | ⟨3, _⟩ => rfl | ⟨4, _⟩ => rfl)
  rw [hi, ref_pred]

end Cert.ReferenceIdeal.RefValue

end
-- ==== Proof.Staged.lean ====
/-
  The two programs stage the same arrays.

  Before its filter runs, the kernel program reshapes the frames [4,8,256,256,1] to [4,8,256,256] and pads the two
  image axes by 2 on each side with the value 0 converted to a float, and it reshapes the taps [4,256,256,200] to
  [4,8,256,256,25] and moves the tap axis in front of the two image axes.  The reference pads the frames with their
  unit axis kept, and reshapes the taps to [4,8,256,256,1,25].

  A reshape reads its operand at the index with the same row-major position, a transpose permutes coordinates, and a
  pad reads its operand at the index shifted by the low padding when that lies inside the operand and is the padding
  value otherwise.  So, index by index, the kernel's padded frame at (b, n, Y, X) is the reference's at
  (b, n, Y, X, 0), and the kernel's tap array at (b, n, k, y, x) is the reference's at (b, n, y, x, 0, k).  No
  arithmetic on array elements occurs: the padding value is the same term on both sides.
-/
import proofs.«158530_j88347477279316_1_alg».proof.Proof.Gen.KernelIdeal.Frame
import proofs.«158530_j88347477279316_1_alg».proof.Proof.Gen.ReferenceIdeal.Read
import Idealize.ShloMosaic.Lib.ValueIdx
import Idealize.ShloMosaic.Lib.ValueIdxRank6
import Idealize.ShloMosaic.Lib.Pipeline.Value
import Idealize.ShloMosaic.Lib.KernelVsHost
import Idealize.ShloMosaic.Lib.StableHlo.Run
noncomputable section
namespace Cert.KernelIdeal.Staged
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-! ## The host operations before the region, as terms -/

/-- The padded frame the region finds is the first argument reshaped to [4,8,256,256] and padded by 2 on the two image
    axes with the integer 0 converted to a float. -/
theorem V_main_v1_eq (c : Dev nD) :
    (V m c main_v1 : S4x8x260x260.Idx → EReal)
      = pad S4x8x260x260 ![0, 0, 2, 2] ![0, 0, 2, 2] ![0, 0, 0, 0]
          (shapeCast S4x8x256x256 (m ((c : Thread nD τ).loc main_arg0)) Cert.KernelIdeal.Facts₀.shapeCasts_S4x8x256x256x1_S4x8x256x256)
          (sitofp (F := Ideal) .f32 (constantI S_ 32 0#32))
          Cert.KernelIdeal.Facts₀.pads_S4x8x256x256_S4x8x260x260_000_000_220_220 Cert.KernelIdeal.Facts₀.h_S_ := by
  dsimp only [Gen.V, Gen.V0]
  simp only [Gen.hostOps0, Gen.hostOps0_1, Gen.hostOps0_2, List.flatten_cons, List.flatten_nil, List.append_nil, List.cons_append, List.nil_append]
  after_results
  rfl

/-- The tap array the region finds is the second argument reshaped to [4,8,256,256,25] with the tap axis moved in
    front of the two image axes. -/
theorem V_main_v3_eq (c : Dev nD) :
    (V m c main_v3 : S4x8x25x256x256.Idx → EReal)
      = transpose S4x8x25x256x256 [0, 1, 4, 2, 3]
          (shapeCast S4x8x256x256x25 (m ((c : Thread nD τ).loc main_arg1)) Cert.KernelIdeal.Facts₀.shapeCasts_S4x256x256x200_S4x8x256x256x25)
          Cert.KernelIdeal.Facts₀.transposes_S4x8x256x256x25_S4x8x25x256x256_0_1_4_2_3 := by
  dsimp only [Gen.V, Gen.V0]
  simp only [Gen.hostOps0, Gen.hostOps0_1, Gen.hostOps0_2, List.flatten_cons, List.flatten_nil, List.append_nil, List.cons_append, List.nil_append]
  after_results
  rfl

/-! ## Reshapes, a transpose and pads read at an index -/

/-- Two reshapes of one array agree wherever the two indices have the same row-major position: each reads the
    array at the one index with that position. -/
theorem shapeCast_eq_of_rowMajor {s t₁ t₂ : Shape} {α : Type} (x : s.Idx → α) (h₁ : s.ShapeCasts t₁) (h₂ : s.ShapeCasts t₂)
    (j₁ : t₁.Idx) (j₂ : t₂.Idx) (h : (t₁.rowMajor j₁).val = (t₂.rowMajor j₂).val) :
    shapeCast t₁ x h₁ j₁ = shapeCast t₂ x h₂ j₂ := by
  unfold shapeCast
  exact congrArg x (Shape.reshapeEquiv_eq_of_rowMajor h₁ ((Shape.rowMajor_reshapeEquiv h₂ j₂).trans h.symm))

/-- The taps: the array [4,256,256,200] reshaped to [4,8,256,256,25] and transposed to [4,8,25,256,256], read at
    (b, n, k, y, x), is the same array reshaped to [4,8,256,256,1,25] read at (b, n, y, x, 0, k): both have row-major
    position (((b*8 + n)*256 + y)*256 + x)*25 + k. -/
theorem taps_apply (a1 : S4x256x256x200.Idx → EReal) (b : Fin 4) (n : Fin 8) (k : Fin 25) (y x : Fin 256) :
    transpose S4x8x25x256x256 [0, 1, 4, 2, 3]
        (shapeCast S4x8x256x256x25 a1 Cert.KernelIdeal.Facts₀.shapeCasts_S4x256x256x200_S4x8x256x256x25)
        Cert.KernelIdeal.Facts₀.transposes_S4x8x256x256x25_S4x8x25x256x256_0_1_4_2_3 (ix5 b n k y x)
      = shapeCast Cert.ReferenceIdeal.S4x8x256x256x1x25 a1
          Cert.ReferenceIdeal.Facts₀.shapeCasts_S4x256x256x200_S4x8x256x256x1x25 (ix6 b n y x (0 : Fin 1) k) := by
  refine (transpose_apply _ _ _ (ix5 b n k y x) (ix5 b n y x k) (fun a => ?_)).trans ?_
  · match a with
    | ⟨0, _⟩ => rfl
    | ⟨1, _⟩ => rfl
    | ⟨2, _⟩ => rfl
    | ⟨3, _⟩ => rfl
    | ⟨4, _⟩ => rfl
  · refine shapeCast_eq_of_rowMajor a1 _ _ (ix5 b n y x k) (ix6 b n y x (0 : Fin 1) k) ?_
    rw [Shape.rowMajor_val_five, Shape.rowMajor_val_six]
    show (((b.val * 8 + n.val) * 256 + y.val) * 256 + x.val) * 25 + k.val
      = ((((b.val * 8 + n.val) * 256 + y.val) * 256 + x.val) * 1 + 0) * 25 + k.val
    omega

/-- The frame: the array [4,8,256,256,1] reshaped to [4,8,256,256] and padded by 2 on the two image axes, read at
    (b, n, Y, X), is the same array padded by 2 on the same axes with its unit axis kept, read at (b, n, Y, X, 0).
    Inside the image both read the array at (b, n, Y-2, X-2, 0); outside it both are the padding value. -/
theorem frame_apply (a0 : S4x8x256x256x1.Idx → EReal) (v : S_.Idx → EReal) (b : Fin 4) (n : Fin 8) (Y X : Fin 260) :
    pad S4x8x260x260 ![0, 0, 2, 2] ![0, 0, 2, 2] ![0, 0, 0, 0]
        (shapeCast S4x8x256x256 a0 Cert.KernelIdeal.Facts₀.shapeCasts_S4x8x256x256x1_S4x8x256x256) v
        Cert.KernelIdeal.Facts₀.pads_S4x8x256x256_S4x8x260x260_000_000_220_220 Cert.KernelIdeal.Facts₀.h_S_ (ix4 b n Y X)
      = pad Cert.ReferenceIdeal.S4x8x260x260x1 ![0, 0, 2, 2, 0] ![0, 0, 2, 2, 0] ![0, 0, 0, 0, 0] a0 v
          Cert.ReferenceIdeal.Facts₀.pads_S4x8x256x256x1_S4x8x260x260x1_000_000_220_220_000
          Cert.ReferenceIdeal.Facts₀.h_S_ (ix5 b n Y X (0 : Fin 1)) := by
  by_cases hY : 2 ≤ Y.val ∧ Y.val < 258
  · by_cases hX : 2 ≤ X.val ∧ X.val < 258
    · -- inside the image on both axes: both sides read the array at (b, n, Y-2, X-2, 0)
      have hy : Y.val - 2 < 256 := by omega
      have hx : X.val - 2 < 256 := by omega
      refine (pad_apply_of_inside _ _ _ _ v _ _ (ix4 b n Y X) (ix4 b n (⟨Y.val - 2, hy⟩ : Fin 256) (⟨X.val - 2, hx⟩ : Fin 256))
        (fun a => ?_)).trans ?_
      · match a with
        | ⟨0, _⟩ => show b.val = 0 + b.val * (0 + 1); omega
        | ⟨1, _⟩ => show n.val = 0 + n.val * (0 + 1); omega
        | ⟨2, _⟩ => show Y.val = 2 + (Y.val - 2) * (0 + 1); omega
        | ⟨3, _⟩ => show X.val = 2 + (X.val - 2) * (0 + 1); omega
      refine (shapeCast_apply a0 _ (ix4 b n (⟨Y.val - 2, hy⟩ : Fin 256) (⟨X.val - 2, hx⟩ : Fin 256))
        (ix5 b n (⟨Y.val - 2, hy⟩ : Fin 256) (⟨X.val - 2, hx⟩ : Fin 256) (0 : Fin 1)) ?_).trans ?_
      · rw [Shape.rowMajor_val_five, Shape.rowMajor_val_four]
        show (((b.val * 8 + n.val) * 256 + (Y.val - 2)) * 256 + (X.val - 2)) * 1 + 0
          = ((b.val * 8 + n.val) * 256 + (Y.val - 2)) * 256 + (X.val - 2)
        omega
      refine (pad_apply_of_inside _ _ _ a0 v _ _ (ix5 b n Y X (0 : Fin 1))
        (ix5 b n (⟨Y.val - 2, hy⟩ : Fin 256) (⟨X.val - 2, hx⟩ : Fin 256) (0 : Fin 1)) (fun a => ?_)).symm
      match a with
      | ⟨0, _⟩ => show b.val = 0 + b.val * (0 + 1); omega
      | ⟨1, _⟩ => show n.val = 0 + n.val * (0 + 1); omega
      | ⟨2, _⟩ => show Y.val = 2 + (Y.val - 2) * (0 + 1); omega
      | ⟨3, _⟩ => show X.val = 2 + (X.val - 2) * (0 + 1); omega
      | ⟨4, _⟩ => show (0 : Nat) = 0 + 0 * (0 + 1); omega
    · -- outside on the column axis (axis 3): both sides are the padding value
      refine (pad_apply_of_not_inside _ _ _ _ v _ _ (ix4 b n Y X) (3 : Fin 4) ?_).trans
        (pad_apply_of_not_inside _ _ _ a0 v _ _ (ix5 b n Y X (0 : Fin 1)) (3 : Fin 5) ?_).symm
      · show ¬(2 ≤ X.val ∧ (X.val - 2) % (0 + 1) = 0 ∧ (X.val - 2) / (0 + 1) < 256)
        intro h; omega
      · show ¬(2 ≤ X.val ∧ (X.val - 2) % (0 + 1) = 0 ∧ (X.val - 2) / (0 + 1) < 256)
        intro h; omega
  · -- outside on the row axis (axis 2): both sides are the padding value
    refine (pad_apply_of_not_inside _ _ _ _ v _ _ (ix4 b n Y X) (2 : Fin 4) ?_).trans
      (pad_apply_of_not_inside _ _ _ a0 v _ _ (ix5 b n Y X (0 : Fin 1)) (2 : Fin 5) ?_).symm
    · show ¬(2 ≤ Y.val ∧ (Y.val - 2) % (0 + 1) = 0 ∧ (Y.val - 2) / (0 + 1) < 256)
      intro h; omega
    · show ¬(2 ≤ Y.val ∧ (Y.val - 2) % (0 + 1) = 0 ∧ (Y.val - 2) / (0 + 1) < 256)
      intro h; omega

/-! ## The staged arrays of the two programs, index by index -/

/-- The padded frame the region finds, at (b, n, Y, X), is the reference's padded frame at (b, n, Y, X, 0). -/
theorem V_frame (c : Dev nD) (b : Fin 4) (n : Fin 8) (Y X : Fin 260) :
    V m c main_v1 (ix4 b n Y X)
      = Cert.ReferenceIdeal.Read.val_main_v1 (F := Ideal) (m ((c : Thread nD τ).loc main_arg0)) (ix5 b n Y X (0 : Fin 1)) := by
  refine (congrFun (V_main_v1_eq m c) (ix4 b n Y X)).trans ?_
  unfold Cert.ReferenceIdeal.Read.val_main_v1 Cert.ReferenceIdeal.Read.val_main_call0_v0 Cert.ReferenceIdeal.Read.val_main_c
  exact frame_apply _ _ b n Y X

/-- Tap k of pixel (y, x) of frame (b, n) as the region finds it is the reference's reshaped core at (b, n, y, x, 0, k). -/
theorem V_taps (c : Dev nD) (b : Fin 4) (n : Fin 8) (k : Fin 25) (y x : Fin 256) :
    V m c main_v3 (ix5 b n k y x)
      = Cert.ReferenceIdeal.Read.val_main_v0 (F := Ideal) (m ((c : Thread nD τ).loc main_arg1)) (ix6 b n y x (0 : Fin 1) k) := by
  refine (congrFun (V_main_v3_eq m c) (ix5 b n k y x)).trans ?_
  unfold Cert.ReferenceIdeal.Read.val_main_v0
  exact taps_apply _ b n k y x

end Cert.KernelIdeal.Staged
end
-- ==== Proof.KerPieces.lean ====
/-
  What the kernel's body leaves behind at one grid point, case by case.

  At every grid point the body forms the 256 x 256 block of per-frame predictions from the point's padded frame
  block `x0` and its block of 25 tap planes `x1`: starting from the zero block it adds, for the taps k = 0 … 24 in
  order, the product of tap plane k with the frame window at the offsets (k / 5, k % 5)  (`predBlock`).  It stores
  that block as the per-frame output, and adds it to the running block it carries from point to point
  (`accStep`): at the first frame of a burst the running block is first reset to zero, and at the last frame the
  updated running block times the constant 1/8 is stored as the burst output.  The three cases below are the
  first frame (A), a middle frame (B) and the last frame (C) of a burst.  Nothing here depends on how floats are
  read.
-/
import proofs.«158530_j88347477279316_1_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The block of per-frame predictions: from zero, the 25 products of a tap plane with the matching frame window,
    added in tap order. -/
def predBlock (x0 : Vec F S1x1x260x260 .f32) (x1 : Vec F S1x1x25x256x256 .f32) : FVec F S256x256 .f32 :=
  k0_pay1 (k0_pay11 (k0_pay10 (k0_pay9 (k0_pay8 (k0_pay7 (k0_pay6 (View.ld x0 (Rect.unit ![0, 0, 0, 0] ![1, 1, 256, 256] inb_S1x1x260x260_S1x1x256x256_0_0_0_0)) (View.ld x1 (Rect.unit ![0, 0, 0, 0, 0] ![1, 1, 1, 256, 256] inb_S1x1x25x256x256_S1x1x1x256x256_0_0_0_0_0)) (View.ld x0 (Rect.unit ![0, 0, 0, 1] ![1, 1, 256, 256] inb_S1x1x260x260_S1x1x256x256_0_0_0_1)) (View.ld x1 (Rect.unit ![0, 0, 1, 0, 0] ![1, 1, 1, 256, 256] inb_S1x1x25x256x256_S1x1x1x256x256_0_0_1_0_0)) (View.ld x0 (Rect.unit ![0, 0, 0, 2] ![1, 1, 256, 256] inb_S1x1x260x260_S1x1x256x256_0_0_0_2)) (View.ld x1 (Rect.unit ![0, 0, 2, 0, 0] ![1, 1, 1, 256, 256] inb_S1x1x25x256x256_S1x1x1x256x256_0_0_2_0_0))) (View.ld x0 (Rect.unit ![0, 0, 0, 3] ![1, 1, 256, 256] inb_S1x1x260x260_S1x1x256x256_0_0_0_3)) (View.ld x1 (Rect.unit ![0, 0, 3, 0, 0] ![1, 1, 1, 256, 256] inb_S1x1x25x256x256_S1x1x1x256x256_0_0_3_0_0)) (View.ld x0 (Rect.unit ![0, 0, 0, 4] ![1, 1, 256, 256] inb_S1x1x260x260_S1x1x256x256_0_0_0_4)) (View.ld x1 (Rect.unit ![0, 0, 4, 0, 0] ![1, 1, 1, 256, 256] inb_S1x1x25x256x256_S1x1x1x256x256_0_0_4_0_0)) (View.ld x0 (Rect.unit ![0, 0, 1, 0] ![1, 1, 256, 256] inb_S1x1x260x260_S1x1x256x256_0_0_1_0)) (View.ld x1 (Rect.unit ![0, 0, 5, 0, 0] ![1, 1, 1, 256, 256] inb_S1x1x25x256x256_S1x1x1x256x256_0_0_5_0_0)) (View.ld x0 (Rect.unit ![0, 0, 1, 1] ![1, 1, 256, 256] inb_S1x1x260x260_S1x1x256x256_0_0_1_1)) (View.ld x1 (Rect.unit ![0, 0, 6, 0, 0] ![1, 1, 1, 256, 256] inb_S1x1x25x256x256_S1x1x1x256x256_0_0_6_0_0))) (View.ld x0 (Rect.unit ![0, 0, 1, 2] ![1, 1, 256, 256] inb_S1x1x260x260_S1x1x256x256_0_0_1_2)) (View.ld x1 (Rect.unit ![0, 0, 7, 0, 0] ![1, 1, 1, 256, 256] inb_S1x1x25x256x256_S1x1x1x256x256_0_0_7_0_0)) (View.ld x0 (Rect.unit ![0, 0, 1, 3] ![1, 1, 256, 256] inb_S1x1x260x260_S1x1x256x256_0_0_1_3)) (View.ld x1 (Rect.unit ![0, 0, 8, 0, 0] ![1, 1, 1, 256, 256] inb_S1x1x25x256x256_S1x1x1x256x256_0_0_8_0_0)) (View.ld x0 (Rect.unit ![0, 0, 1, 4] ![1, 1, 256, 256] inb_S1x1x260x260_S1x1x256x256_0_0_1_4)) (View.ld x1 (Rect.unit ![0, 0, 9, 0, 0] ![1, 1, 1, 256, 256] inb_S1x1x25x256x256_S1x1x1x256x256_0_0_9_0_0)) (View.ld x0 (Rect.unit ![0, 0, 2, 0] ![1, 1, 256, 256] inb_S1x1x260x260_S1x1x256x256_0_0_2_0)) (View.ld x1 (Rect.unit ![0, 0, 10, 0, 0] ![1, 1, 1, 256, 256] inb_S1x1x25x256x256_S1x1x1x256x256_0_0_10_0_0))) (View.ld x0 (Rect.unit ![0, 0, 2, 1] ![1, 1, 256, 256] inb_S1x1x260x260_S1x1x256x256_0_0_2_1)) (View.ld x1 (Rect.unit ![0, 0, 11, 0, 0] ![1, 1, 1, 256, 256] inb_S1x1x25x256x256_S1x1x1x256x256_0_0_11_0_0)) (View.ld x0 (Rect.unit ![0, 0, 2, 2] ![1, 1, 256, 256] inb_S1x1x260x260_S1x1x256x256_0_0_2_2)) (View.ld x1 (Rect.unit ![0, 0, 12, 0, 0] ![1, 1, 1, 256, 256] inb_S1x1x25x256x256_S1x1x1x256x256_0_0_12_0_0)) (View.ld x0 (Rect.unit ![0, 0, 2, 3] ![1, 1, 256, 256] inb_S1x1x260x260_S1x1x256x256_0_0_2_3)) (View.ld x1 (Rect.unit ![0, 0, 13, 0, 0] ![1, 1, 1, 256, 256] inb_S1x1x25x256x256_S1x1x1x256x256_0_0_13_0_0)) (View.ld x0 (Rect.unit ![0, 0, 2, 4] ![1, 1, 256, 256] inb_S1x1x260x260_S1x1x256x256_0_0_2_4)) (View.ld x1 (Rect.unit ![0, 0, 14, 0, 0] ![1, 1, 1, 256, 256] inb_S1x1x25x256x256_S1x1x1x256x256_0_0_14_0_0))) (View.ld x0 (Rect.unit ![0, 0, 3, 0] ![1, 1, 256, 256] inb_S1x1x260x260_S1x1x256x256_0_0_3_0)) (View.ld x1 (Rect.unit ![0, 0, 15, 0, 0] ![1, 1, 1, 256, 256] inb_S1x1x25x256x256_S1x1x1x256x256_0_0_15_0_0)) (View.ld x0 (Rect.unit ![0, 0, 3, 1] ![1, 1, 256, 256] inb_S1x1x260x260_S1x1x256x256_0_0_3_1)) (View.ld x1 (Rect.unit ![0, 0, 16, 0, 0] ![1, 1, 1, 256, 256] inb_S1x1x25x256x256_S1x1x1x256x256_0_0_16_0_0)) (View.ld x0 (Rect.unit ![0, 0, 3, 2] ![1, 1, 256, 256] inb_S1x1x260x260_S1x1x256x256_0_0_3_2)) (View.ld x1 (Rect.unit ![0, 0, 17, 0, 0] ![1, 1, 1, 256, 256] inb_S1x1x25x256x256_S1x1x1x256x256_0_0_17_0_0)) (View.ld x0 (Rect.unit ![0, 0, 3, 3] ![1, 1, 256, 256] inb_S1x1x260x260_S1x1x256x256_0_0_3_3)) (View.ld x1 (Rect.unit ![0, 0, 18, 0, 0] ![1, 1, 1, 256, 256] inb_S1x1x25x256x256_S1x1x1x256x256_0_0_18_0_0))) (View.ld x0 (Rect.unit ![0, 0, 3, 4] ![1, 1, 256, 256] inb_S1x1x260x260_S1x1x256x256_0_0_3_4)) (View.ld x1 (Rect.unit ![0, 0, 19, 0, 0] ![1, 1, 1, 256, 256] inb_S1x1x25x256x256_S1x1x1x256x256_0_0_19_0_0)) (View.ld x0 (Rect.unit ![0, 0, 4, 0] ![1, 1, 256, 256] inb_S1x1x260x260_S1x1x256x256_0_0_4_0)) (View.ld x1 (Rect.unit ![0, 0, 20, 0, 0] ![1, 1, 1, 256, 256] inb_S1x1x25x256x256_S1x1x1x256x256_0_0_20_0_0)) (View.ld x0 (Rect.unit ![0, 0, 4, 1] ![1, 1, 256, 256] inb_S1x1x260x260_S1x1x256x256_0_0_4_1)) (View.ld x1 (Rect.unit ![0, 0, 21, 0, 0] ![1, 1, 1, 256, 256] inb_S1x1x25x256x256_S1x1x1x256x256_0_0_21_0_0)) (View.ld x0 (Rect.unit ![0, 0, 4, 2] ![1, 1, 256, 256] inb_S1x1x260x260_S1x1x256x256_0_0_4_2)) (View.ld x1 (Rect.unit ![0, 0, 22, 0, 0] ![1, 1, 1, 256, 256] inb_S1x1x25x256x256_S1x1x1x256x256_0_0_22_0_0))) (View.ld x0 (Rect.unit ![0, 0, 4, 3] ![1, 1, 256, 256] inb_S1x1x260x260_S1x1x256x256_0_0_4_3)) (View.ld x1 (Rect.unit ![0, 0, 23, 0, 0] ![1, 1, 1, 256, 256] inb_S1x1x25x256x256_S1x1x1x256x256_0_0_23_0_0)) (View.ld x0 (Rect.unit ![0, 0, 4, 4] ![1, 1, 256, 256] inb_S1x1x260x260_S1x1x256x256_0_0_4_4)) (View.ld x1 (Rect.unit ![0, 0, 24, 0, 0] ![1, 1, 1, 256, 256] inb_S1x1x25x256x256_S1x1x1x256x256_0_0_24_0_0))

/-- The running block after one more frame: the carried block plus this frame's predictions. -/
def accStep (acc : Vec F S256x256 .f32) (x0 : Vec F S1x1x260x260 .f32) (x1 : Vec F S1x1x25x256x256 .f32) : FVec F S256x256 .f32 :=
  shapeCast S256x256 (addf acc (predBlock x0 x1)) shapeCasts_S256x256_S256x256

theorem accStep_eq (acc : Vec F S256x256 .f32) (x0 : Vec F S1x1x260x260 .f32) (x1 : Vec F S1x1x25x256x256 .f32) :
    accStep acc x0 x1 = addf acc (predBlock x0 x1) := shapeCast_self _ _

/-- First frame of a burst: the per-frame output block is the predictions. -/
theorem out_A_2 (c : Dev nD) (i : grid0.Coords) (arg2 : Memref sig .tc .vmem S1x1x260x260 .f32) (harg2 : arg2.IsWhole) (arg3 : Memref sig .tc .vmem S1x1x25x256x256 .f32) (harg3 : arg3.IsWhole) (arg4 : Memref sig .tc .vmem S1x1x256x256 .f32) (harg4 : arg4.IsWhole) (arg5 : Memref sig .tc .vmem S1x256x256 .f32) (harg5 : arg5.IsWhole) (arg6 : Memref sig .tc .vmem S256x256 .f32) (harg6 : arg6.IsWhole) (hc0 : cond0_0 i) (hc1 : ¬cond0_1 i)
    (x0 : Vec F S1x1x260x260 .f32) (x1 : Vec F S1x1x25x256x256 .f32) :
    out0_A_2 c i arg2 harg2 arg3 harg3 arg4 harg4 arg5 harg5 arg6 harg6 hc0 hc1 x0 x1 = shapeCast S1x1x256x256 (predBlock x0 x1) shapeCasts_S256x256_S1x1x256x256 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero hz4]
  simp only [View.readAt_eq_ld, harg2.read_unread, harg3.read_unread]
  rfl

/-- Middle frame: the per-frame output block is the predictions. -/
theorem out_B_2 (c : Dev nD) (i : grid0.Coords) (arg2 : Memref sig .tc .vmem S1x1x260x260 .f32) (harg2 : arg2.IsWhole) (arg3 : Memref sig .tc .vmem S1x1x25x256x256 .f32) (harg3 : arg3.IsWhole) (arg4 : Memref sig .tc .vmem S1x1x256x256 .f32) (harg4 : arg4.IsWhole) (arg5 : Memref sig .tc .vmem S1x256x256 .f32) (harg5 : arg5.IsWhole) (arg6 : Memref sig .tc .vmem S256x256 .f32) (harg6 : arg6.IsWhole) (hc0 : ¬cond0_0 i) (hc1 : ¬cond0_1 i)
    (x0 : Vec F S1x1x260x260 .f32) (x1 : Vec F S1x1x25x256x256 .f32) (xs0 : Vec F S256x256 .f32) :
    out0_B_2 c i arg2 harg2 arg3 harg3 arg4 harg4 arg5 harg5 arg6 harg6 hc0 hc1 x0 x1 xs0 = shapeCast S1x1x256x256 (predBlock x0 x1) shapeCasts_S256x256_S1x1x256x256 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero hz4]
  simp only [View.readAt_eq_ld, harg2.read_unread, harg3.read_unread]
  rfl

/-- Last frame: the per-frame output block is the predictions. -/
theorem out_C_2 (c : Dev nD) (i : grid0.Coords) (arg2 : Memref sig .tc .vmem S1x1x260x260 .f32) (harg2 : arg2.IsWhole) (arg3 : Memref sig .tc .vmem S1x1x25x256x256 .f32) (harg3 : arg3.IsWhole) (arg4 : Memref sig .tc .vmem S1x1x256x256 .f32) (harg4 : arg4.IsWhole) (arg5 : Memref sig .tc .vmem S1x256x256 .f32) (harg5 : arg5.IsWhole) (arg6 : Memref sig .tc .vmem S256x256 .f32) (harg6 : arg6.IsWhole) (hc0 : ¬cond0_0 i) (hc1 : cond0_1 i)
    (x0 : Vec F S1x1x260x260 .f32) (x1 : Vec F S1x1x25x256x256 .f32) (xs0 : Vec F S256x256 .f32) :
    out0_C_2 c i arg2 harg2 arg3 harg3 arg4 harg4 arg5 harg5 arg6 harg6 hc0 hc1 x0 x1 xs0 = shapeCast S1x1x256x256 (predBlock x0 x1) shapeCasts_S256x256_S1x1x256x256 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz4]
  simp only [View.readAt_eq_ld, harg2.read_unread, harg3.read_unread]
  rfl

/-- First frame: the running block is reset to the zero block and then takes this frame's predictions. -/
theorem sout_A_0 (c : Dev nD) (i : grid0.Coords) (arg2 : Memref sig .tc .vmem S1x1x260x260 .f32) (harg2 : arg2.IsWhole) (arg3 : Memref sig .tc .vmem S1x1x25x256x256 .f32) (harg3 : arg3.IsWhole) (arg4 : Memref sig .tc .vmem S1x1x256x256 .f32) (harg4 : arg4.IsWhole) (arg5 : Memref sig .tc .vmem S1x256x256 .f32) (harg5 : arg5.IsWhole) (arg6 : Memref sig .tc .vmem S256x256 .f32) (harg6 : arg6.IsWhole) (hc0 : cond0_0 i) (hc1 : ¬cond0_1 i)
    (x0 : Vec F S1x1x260x260 .f32) (x1 : Vec F S1x1x25x256x256 .f32) :
    sout0_A_0 c i arg2 harg2 arg3 harg3 arg4 harg4 arg5 harg5 arg6 harg6 hc0 hc1 x0 x1 = accStep (k0_pay5 (F := F)) x0 x1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S256x256) hz2, View.readCov_unit_zero (S := S256x256) _ hz2]
  simp only [View.readAt_eq_ld, harg2.read_unread, harg3.read_unread]
  rfl

/-- Middle frame: the running block takes this frame's predictions. -/
theorem sout_B_0 (c : Dev nD) (i : grid0.Coords) (arg2 : Memref sig .tc .vmem S1x1x260x260 .f32) (harg2 : arg2.IsWhole) (arg3 : Memref sig .tc .vmem S1x1x25x256x256 .f32) (harg3 : arg3.IsWhole) (arg4 : Memref sig .tc .vmem S1x1x256x256 .f32) (harg4 : arg4.IsWhole) (arg5 : Memref sig .tc .vmem S1x256x256 .f32) (harg5 : arg5.IsWhole) (arg6 : Memref sig .tc .vmem S256x256 .f32) (harg6 : arg6.IsWhole) (hc0 : ¬cond0_0 i) (hc1 : ¬cond0_1 i)
    (x0 : Vec F S1x1x260x260 .f32) (x1 : Vec F S1x1x25x256x256 .f32) (xs0 : Vec F S256x256 .f32) :
    sout0_B_0 c i arg2 harg2 arg3 harg3 arg4 harg4 arg5 harg5 arg6 harg6 hc0 hc1 x0 x1 xs0 = accStep xs0 x0 x1 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S256x256) hz2]
  rfl

/-- Last frame: the running block takes this frame's predictions. -/
theorem sout_C_0 (c : Dev nD) (i : grid0.Coords) (arg2 : Memref sig .tc .vmem S1x1x260x260 .f32) (harg2 : arg2.IsWhole) (arg3 : Memref sig .tc .vmem S1x1x25x256x256 .f32) (harg3 : arg3.IsWhole) (arg4 : Memref sig .tc .vmem S1x1x256x256 .f32) (harg4 : arg4.IsWhole) (arg5 : Memref sig .tc .vmem S1x256x256 .f32) (harg5 : arg5.IsWhole) (arg6 : Memref sig .tc .vmem S256x256 .f32) (harg6 : arg6.IsWhole) (hc0 : ¬cond0_0 i) (hc1 : cond0_1 i)
    (x0 : Vec F S1x1x260x260 .f32) (x1 : Vec F S1x1x25x256x256 .f32) (xs0 : Vec F S256x256 .f32) :
    sout0_C_0 c i arg2 harg2 arg3 harg3 arg4 harg4 arg5 harg5 arg6 harg6 hc0 hc1 x0 x1 xs0 = accStep xs0 x0 x1 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S256x256) hz2]
  rfl

/-- Last frame: the burst output block is the updated running block times the constant 1/8. -/
theorem out_C_3 (c : Dev nD) (i : grid0.Coords) (arg2 : Memref sig .tc .vmem S1x1x260x260 .f32) (harg2 : arg2.IsWhole) (arg3 : Memref sig .tc .vmem S1x1x25x256x256 .f32) (harg3 : arg3.IsWhole) (arg4 : Memref sig .tc .vmem S1x1x256x256 .f32) (harg4 : arg4.IsWhole) (arg5 : Memref sig .tc .vmem S1x256x256 .f32) (harg5 : arg5.IsWhole) (arg6 : Memref sig .tc .vmem S256x256 .f32) (harg6 : arg6.IsWhole) (hc0 : ¬cond0_0 i) (hc1 : cond0_1 i)
    (x0 : Vec F S1x1x260x260 .f32) (x1 : Vec F S1x1x25x256x256 .f32) (xs0 : Vec F S256x256 .f32) :
    out0_C_3 c i arg2 harg2 arg3 harg3 arg4 harg4 arg5 harg5 arg6 harg6 hc0 hc1 x0 x1 xs0 = k0_pay4 (accStep xs0 x0 x1) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S256x256) _ hz2]
  simp only [View.readAt_eq_ld, harg2.read_unread, harg3.read_unread, harg6.read_unread, View.ld_unit_zero (S := S256x256) hz2]
  rfl

end Cert.KernelIdeal.Pieces
end
-- ==== Proof.KerAcc.lean ====
/-
  The running block, point by point.

  The 32 grid points are the pairs (burst b, frame n) in row-major order: point t is frame t % 8 of burst t / 8.
  The block the kernel carries from point to point is reset at the first frame of each burst and takes one frame's
  predictions per point, so after point t it holds the predictions of the frames 0 … t % 8 of burst t / 8, added
  in order from the zero block (`acc`).  What the staging buffers hold after each point — the generated
  recursion over the three cases — is: the per-frame output holds the point's predictions at every point, the
  carried block is `acc`, and at the last frame of a burst the burst output holds `acc` times the constant 1/8.
-/
import proofs.«158530_j88347477279316_1_alg».proof.Proof.KerPieces

set_option maxRecDepth 16384

noncomputable section
open Idealize.ShloMosaic Idealize.ShloMosaic.TcCoe Idealize.SL.Sem
namespace Cert.KernelIdeal.Acc
open Cert.KernelIdeal Cert.KernelIdeal.Gen Cert.KernelIdeal.Pieces
variable {F : FTy → Type} [FloatOps F]
variable (m : (ℓ : Loc nD τ sig) → Buf (Elt F) ℓ)

/-- The running block after point `n`: reset to the zero block at the first frame of a burst, then one frame's
    predictions added per point. -/
def acc (c : Dev nD) : (n : ℕ) → n < cfg0.N → FVec F S256x256 .f32
  | 0, h => accStep (k0_pay5 (F := F)) (iblk m c 0 ⟨0, h⟩) (iblk m c 1 ⟨0, h⟩)
  | n + 1, h => accStep (if (n + 1) % 8 = 0 then k0_pay5 (F := F) else acc c n (Nat.lt_of_succ_lt h))
      (iblk m c 0 ⟨n + 1, h⟩) (iblk m c 1 ⟨n + 1, h⟩)

/-- At the first frame of a burst the running block restarts from zero. -/
theorem acc_reset (c : Dev nD) : ∀ (n : ℕ) (h : n < cfg0.N), n % 8 = 0 →
    acc m c n h = accStep (k0_pay5 (F := F)) (iblk m c 0 ⟨n, h⟩) (iblk m c 1 ⟨n, h⟩)
  | 0, _, _ => rfl
  | n + 1, h, h0 => by
    show accStep (if (n + 1) % 8 = 0 then k0_pay5 (F := F) else acc m c n (Nat.lt_of_succ_lt h)) _ _ = _
    rw [if_pos h0]

/-- At any other frame it continues from the point before. -/
theorem acc_step (c : Dev nD) (n : ℕ) (h : n + 1 < cfg0.N) (h0 : ¬(n + 1) % 8 = 0) :
    acc m c (n + 1) h = accStep (acc m c n (Nat.lt_of_succ_lt h)) (iblk m c 0 ⟨n + 1, h⟩) (iblk m c 1 ⟨n + 1, h⟩) := by
  show accStep (if (n + 1) % 8 = 0 then k0_pay5 (F := F) else acc m c n (Nat.lt_of_succ_lt h)) _ _ = _
  rw [if_neg h0]

set_option maxHeartbeats 4000000 in
/-- The per-frame output's staging buffer holds the point's predictions, at every point. -/
theorem out2_eq (c : Dev nD) (t : Fin cfg0.N) :
    (outsAt0 m c t.val t.isLt).1
      = shapeCast S1x1x256x256 (predBlock (iblk m c 0 t) (iblk m c 1 t)) shapeCasts_S256x256_S1x1x256x256 := by
  have hN : t.val < 32 := lt_of_lt_of_eq t.isLt (show cfg0.N = 32 from N_0)
  by_cases h0 : t.val % 8 = 0
  · have h1 : ¬t.val % 8 = 7 := by omega
    rw [outsAt0_A m c t h0 h1]
    dsimp only
    exact out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun hc => h1 ((hcond0_1 t).mp hc)) (iblk m c 0 t) (iblk m c 1 t)
  · by_cases h1 : t.val % 8 = 7
    · rw [outsAt0_C m c t h0 h1]
      dsimp only
      exact out_C_2 c (grid0.coords t) (ms0_0 t) (hs0_0 t) (ms0_1 t) (hs0_1 t) (ms0_2 t) (hs0_2 t) (ms0_3 t) (hs0_3 t) scM0_0 (Memref.isWhole_whole _) (fun hc => h0 ((hcond0_0 t).mp hc)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact out_B_2 c (grid0.coords t) (ms0_0 t) (hs0_0 t) (ms0_1 t) (hs0_1 t) (ms0_2 t) (hs0_2 t) (ms0_3 t) (hs0_3 t) scM0_0 (Memref.isWhole_whole _) (fun hc => h0 ((hcond0_0 t).mp hc)) (fun hc => h1 ((hcond0_1 t).mp hc)) (iblk m c 0 t) (iblk m c 1 t) (outsAt0 m c (t.val - 1) (Nat.lt_of_le_of_lt (Nat.sub_le _ _) t.isLt)).2.2

set_option maxHeartbeats 4000000 in
/-- The carried block after point `n` is the running block: by induction on the point. -/
theorem scratch_eq (c : Dev nD) : ∀ (n : ℕ) (h : n < cfg0.N), (outsAt0 m c n h).2.2 = acc m c n h
  | 0, h => by
    have h0 : (⟨0, h⟩ : Fin cfg0.N).val % 8 = 0 := rfl
    have h1 : ¬(⟨0, h⟩ : Fin cfg0.N).val % 8 = 7 := by dsimp only; omega
    rw [outsAt0_A m c ⟨0, h⟩ h0 h1]
    dsimp only
    exact sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hc => h1 ((hcond0_1 ⟨0, h⟩).mp hc)) (iblk m c 0 ⟨0, h⟩) (iblk m c 1 ⟨0, h⟩)
  | n + 1, h => by
    have hN : n + 1 < 32 := lt_of_lt_of_eq h (show cfg0.N = 32 from N_0)
    by_cases h0 : (⟨n + 1, h⟩ : Fin cfg0.N).val % 8 = 0
    · have h1 : ¬(⟨n + 1, h⟩ : Fin cfg0.N).val % 8 = 7 := by dsimp only at h0 ⊢; omega
      rw [outsAt0_A m c ⟨n + 1, h⟩ h0 h1, acc_reset m c (n + 1) h h0]
      dsimp only
      exact sout_A_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun hc => h1 ((hcond0_1 ⟨n + 1, h⟩).mp hc)) (iblk m c 0 ⟨n + 1, h⟩) (iblk m c 1 ⟨n + 1, h⟩)
    · rw [acc_step m c n h h0, ← scratch_eq c n (Nat.lt_of_succ_lt h)]
      by_cases h1 : (⟨n + 1, h⟩ : Fin cfg0.N).val % 8 = 7
      · rw [outsAt0_C m c ⟨n + 1, h⟩ h0 h1]
        dsimp only
        exact sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hc => h0 ((hcond0_0 ⟨n + 1, h⟩).mp hc)) ((hcond0_1 ⟨n + 1, h⟩).mpr h1) (iblk m c 0 ⟨n + 1, h⟩) (iblk m c 1 ⟨n + 1, h⟩) (outsAt0 m c ((⟨n + 1, h⟩ : Fin cfg0.N).val - 1) (Nat.lt_of_le_of_lt (Nat.sub_le _ _) (⟨n + 1, h⟩ : Fin cfg0.N).isLt)).2.2
      · rw [outsAt0_B m c ⟨n + 1, h⟩ h0 h1]
        dsimp only
        exact sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hc => h0 ((hcond0_0 ⟨n + 1, h⟩).mp hc)) (fun hc => h1 ((hcond0_1 ⟨n + 1, h⟩).mp hc)) (iblk m c 0 ⟨n + 1, h⟩) (iblk m c 1 ⟨n + 1, h⟩) (outsAt0 m c ((⟨n + 1, h⟩ : Fin cfg0.N).val - 1) (Nat.lt_of_le_of_lt (Nat.sub_le _ _) (⟨n + 1, h⟩ : Fin cfg0.N).isLt)).2.2

set_option maxHeartbeats 4000000 in
/-- At the last frame of a burst the burst output's staging buffer holds the running block times the constant 1/8. -/
theorem out3_eq (c : Dev nD) : ∀ (n : ℕ) (h : n < cfg0.N), n % 8 = 7 →
    (outsAt0 m c n h).2.1 = k0_pay4 (acc m c n h)
  | 0, _, h7 => absurd h7 (by decide)
  | n + 1, h, h1 => by
    have h0 : ¬(⟨n + 1, h⟩ : Fin cfg0.N).val % 8 = 0 := by dsimp only; omega
    have h1' : (⟨n + 1, h⟩ : Fin cfg0.N).val % 8 = 7 := h1
    rw [acc_step m c n h h0, ← scratch_eq m c n (Nat.lt_of_succ_lt h), outsAt0_C m c ⟨n + 1, h⟩ h0 h1']
    exact out_C_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hc => h0 ((hcond0_0 ⟨n + 1, h⟩).mp hc)) ((hcond0_1 ⟨n + 1, h⟩).mpr h1') (iblk m c 0 ⟨n + 1, h⟩) (iblk m c 1 ⟨n + 1, h⟩) (outsAt0 m c ((⟨n + 1, h⟩ : Fin cfg0.N).val - 1) (Nat.lt_of_le_of_lt (Nat.sub_le _ _) (⟨n + 1, h⟩ : Fin cfg0.N).isLt)).2.2

end Cert.KernelIdeal.Acc
end
-- ==== Proof.BlockIdx.lean ====
/-
  Reading one grid point's blocks at a pixel.

  At one grid point the kernel holds one padded frame as a block of shape [1, 1, 260, 260] and that frame's 25 tap
  planes as a block of shape [1, 1, 25, 256, 256].  Its body reads 256 x 256 windows of the frame at the offsets
  (di, dj), 0 ≤ di, dj < 5, and single tap planes, and recasts each to [256, 256].  The lemmas here say which entry
  of the block each of these reads at the pixel (y, x): the frame window at (di, dj) reads the frame block at
  (y + di, x + dj), tap plane k reads the tap block at (k, y, x); a cast that only adds or drops unit axes keeps
  the remaining coordinates.
-/
import Idealize.ShloMosaic.Lib.ValueIdx
import Idealize.ShloMosaic.Lib.Pipeline.Value
import Idealize.ShloMosaic.Lib.Pipeline.FrameBody

noncomputable section

namespace Cert.Burst

open Idealize.ShloMosaic Idealize.ShloMosaic.ValueIdx

variable {α : Type} {Val : EltTy → Type} {e : EltTy}

/-- A 256 x 256 window of a [1, 1, 260, 260] block, loaded at the offsets (0, 0, di, dj), read at (0, 0, y, x), is the
    block at (0, 0, y + di, x + dj). -/
theorem ld_frame (X : (⟨4, ![1, 1, 260, 260]⟩ : Shape).Idx → Val e) (off : Fin 4 → Nat)
    (inb : ∀ a, off a + (![1, 1, 256, 256] : Fin 4 → Nat) a ≤ (⟨4, ![1, 1, 260, 260]⟩ : Shape).size a)
    (di dj : Nat) (hoff : off = ![0, 0, di, dj]) (y x : Fin 256) (hy : y.val + di < 260) (hx : x.val + dj < 260) :
    View.ld X (Rect.unit off ![1, 1, 256, 256] inb) (ix4 (0 : Fin 1) (0 : Fin 1) y x)
      = X (ix4 (0 : Fin 1) (0 : Fin 1) (⟨y.val + di, hy⟩ : Fin 260) (⟨x.val + dj, hx⟩ : Fin 260)) := by
  subst hoff
  show X _ = X _
  refine congrArg X (funext fun a => Fin.ext ?_)
  match a with
  | ⟨0, _⟩ => show 0 + 1 * 0 = 0; omega
  | ⟨1, _⟩ => show 0 + 1 * 0 = 0; omega
  | ⟨2, _⟩ => show di + 1 * y.val = y.val + di; omega
  | ⟨3, _⟩ => show dj + 1 * x.val = x.val + dj; omega

/-- Tap plane `k` of a [1, 1, 25, 256, 256] block, loaded at the offsets (0, 0, k, 0, 0), read at (0, 0, 0, y, x), is
    the block at (0, 0, k, y, x). -/
theorem ld_tap (X : (⟨5, ![1, 1, 25, 256, 256]⟩ : Shape).Idx → Val e) (off : Fin 5 → Nat)
    (inb : ∀ a, off a + (![1, 1, 1, 256, 256] : Fin 5 → Nat) a ≤ (⟨5, ![1, 1, 25, 256, 256]⟩ : Shape).size a)
    (k : Nat) (hoff : off = ![0, 0, k, 0, 0]) (hk : k < 25) (y x : Fin 256) :
    View.ld X (Rect.unit off ![1, 1, 1, 256, 256] inb) (ix5 (0 : Fin 1) (0 : Fin 1) (0 : Fin 1) y x)
      = X (ix5 (0 : Fin 1) (0 : Fin 1) (⟨k, hk⟩ : Fin 25) y x) := by
  subst hoff
  show X _ = X _
  refine congrArg X (funext fun a => Fin.ext ?_)
  match a with
  | ⟨0, _⟩ => show 0 + 1 * 0 = 0; omega
  | ⟨1, _⟩ => show 0 + 1 * 0 = 0; omega
  | ⟨2, _⟩ => show k + 1 * 0 = k; omega
  | ⟨3, _⟩ => show 0 + 1 * y.val = y.val; omega
  | ⟨4, _⟩ => show 0 + 1 * x.val = x.val; omega

/-- Dropping the two leading unit axes of a [1, 1, 256, 256] vector keeps the pixel. -/
theorem cast_11ab_ab (v : (⟨4, ![1, 1, 256, 256]⟩ : Shape).Idx → α)
    (h : (⟨4, ![1, 1, 256, 256]⟩ : Shape).ShapeCasts ⟨2, ![256, 256]⟩) (y x : Fin 256) :
    shapeCast (⟨2, ![256, 256]⟩ : Shape) v h (ix2 y x) = v (ix4 (0 : Fin 1) (0 : Fin 1) y x) := by
  refine shapeCast_apply v h _ _ ?_
  rw [Shape.rowMajor_val_four, Shape.rowMajor_val_two]
  show ((0 * 1 + 0) * 256 + y.val) * 256 + x.val = y.val * 256 + x.val
  omega

/-- Dropping the three leading unit axes of a [1, 1, 1, 256, 256] vector keeps the pixel. -/
theorem cast_111ab_ab (v : (⟨5, ![1, 1, 1, 256, 256]⟩ : Shape).Idx → α)
    (h : (⟨5, ![1, 1, 1, 256, 256]⟩ : Shape).ShapeCasts ⟨2, ![256, 256]⟩) (y x : Fin 256) :
    shapeCast (⟨2, ![256, 256]⟩ : Shape) v h (ix2 y x) = v (ix5 (0 : Fin 1) (0 : Fin 1) (0 : Fin 1) y x) := by
  refine shapeCast_apply v h _ _ ?_
  rw [Shape.rowMajor_val_five, Shape.rowMajor_val_two]
  show (((0 * 1 + 0) * 1 + 0) * 256 + y.val) * 256 + x.val = y.val * 256 + x.val
  omega

/-- A frame window recast to [256, 256], read at the pixel (y, x): the frame block at (y + di, x + dj).  The offsets
    are within range because the window fits in the block. -/
theorem frameWin_apply (X : (⟨4, ![1, 1, 260, 260]⟩ : Shape).Idx → Val e) (di dj : Nat)
    (inb : ∀ a, (![0, 0, di, dj] : Fin 4 → Nat) a + (![1, 1, 256, 256] : Fin 4 → Nat) a ≤ (⟨4, ![1, 1, 260, 260]⟩ : Shape).size a)
    (h : (⟨4, ![1, 1, 256, 256]⟩ : Shape).ShapeCasts ⟨2, ![256, 256]⟩) (y x : Fin 256) :
    shapeCast (⟨2, ![256, 256]⟩ : Shape) (View.ld X (Rect.unit ![0, 0, di, dj] ![1, 1, 256, 256] inb)) h (ix2 y x)
      = X (ix4 (0 : Fin 1) (0 : Fin 1)
          (⟨y.val + di, by have h2 : di + 256 ≤ 260 := inb 2; omega⟩ : Fin 260)
          (⟨x.val + dj, by have h3 : dj + 256 ≤ 260 := inb 3; omega⟩ : Fin 260)) := by
  rw [cast_11ab_ab]
  exact ld_frame X _ inb di dj rfl y x _ _

/-- A tap plane recast to [256, 256], read at the pixel (y, x): the tap block at (k, y, x). -/
theorem tapPlane_apply (X : (⟨5, ![1, 1, 25, 256, 256]⟩ : Shape).Idx → Val e) (k : Nat)
    (inb : ∀ a, (![0, 0, k, 0, 0] : Fin 5 → Nat) a + (![1, 1, 1, 256, 256] : Fin 5 → Nat) a ≤ (⟨5, ![1, 1, 25, 256, 256]⟩ : Shape).size a)
    (h : (⟨5, ![1, 1, 1, 256, 256]⟩ : Shape).ShapeCasts ⟨2, ![256, 256]⟩) (y x : Fin 256) :
    shapeCast (⟨2, ![256, 256]⟩ : Shape) (View.ld X (Rect.unit ![0, 0, k, 0, 0] ![1, 1, 1, 256, 256] inb)) h (ix2 y x)
      = X (ix5 (0 : Fin 1) (0 : Fin 1) (⟨k, by have h2 : k + 1 ≤ 25 := inb 2; omega⟩ : Fin 25) y x) := by
  rw [cast_111ab_ab]
  exact ld_tap X _ inb k rfl _ y x

/-- Adding two leading unit axes to a [256, 256] vector keeps the pixel. -/
theorem cast_ab_11ab (v : (⟨2, ![256, 256]⟩ : Shape).Idx → α)
    (h : (⟨2, ![256, 256]⟩ : Shape).ShapeCasts ⟨4, ![1, 1, 256, 256]⟩) (u w : Fin 1) (y x : Fin 256) :
    shapeCast (⟨4, ![1, 1, 256, 256]⟩ : Shape) v h (ix4 u w y x) = v (ix2 y x) := by
  refine shapeCast_apply v h _ _ ?_
  rw [Shape.rowMajor_val_four, Shape.rowMajor_val_two]
  show y.val * 256 + x.val = ((u.val * 1 + w.val) * 256 + y.val) * 256 + x.val
  have := u.isLt; have := w.isLt
  omega

/-- Adding one leading unit axis to a [256, 256] vector keeps the pixel. -/
theorem cast_ab_1ab (v : (⟨2, ![256, 256]⟩ : Shape).Idx → α)
    (h : (⟨2, ![256, 256]⟩ : Shape).ShapeCasts ⟨3, ![1, 256, 256]⟩) (u : Fin 1) (y x : Fin 256) :
    shapeCast (⟨3, ![1, 256, 256]⟩ : Shape) v h (ix3 u y x) = v (ix2 y x) := by
  refine shapeCast_apply v h _ _ ?_
  rw [Shape.rowMajor_val_three, Shape.rowMajor_val_two]
  show y.val * 256 + x.val = (u.val * 256 + y.val) * 256 + x.val
  have := u.isLt
  omega

end Cert.Burst

end
-- ==== Proof.Sums.lean ====
/-
  A sum of 25 extended reals taken one term at a time from zero, first to last, is the finite sum: addition on the
  extended reals is associative with unit zero, so no finiteness is involved.
-/
import Mathlib.Data.EReal.Basic
import Mathlib.Algebra.BigOperators.Fin

open scoped BigOperators

namespace Cert.Burst

/-- The 25 terms added one at a time, from zero, in order. -/
theorem sum25_fold (f : Fin 25 → EReal) :
    ∑ k : Fin 25, f k = 0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 := by
  simp only [Fin.sum_univ_castSucc, Fin.sum_univ_zero]
  rfl

end Cert.Burst
-- ==== Proof.KerPayload.lean ====
/-
  The block of per-frame predictions, read at one pixel, at the exact instance.

  Over the extended reals the 25 products added one at a time from zero are the finite sum over the taps: at the
  pixel (y, x), tap plane k is read at (k, y, x) and the frame window at the offsets (k / 5, k % 5) is the frame
  block at (y + k / 5, x + k % 5).
-/
import proofs.«158530_j88347477279316_1_alg».proof.Proof.Spec
import proofs.«158530_j88347477279316_1_alg».proof.Proof.Sums
import proofs.«158530_j88347477279316_1_alg».proof.Proof.BlockIdx
import proofs.«158530_j88347477279316_1_alg».proof.Proof.KerPieces

set_option maxRecDepth 16384

noncomputable section
open scoped BigOperators
open Idealize.ShloMosaic Idealize.ShloMosaic.TcCoe Idealize.SL.Sem Idealize.ShloMosaic.ValueIdx
namespace Cert.KernelIdeal.Pieces
open Cert.KernelIdeal Cert.KernelIdeal.Gen Cert.Burst

/-- The predictions at the pixel (y, x): the sum over the 25 taps of tap plane k at (k, y, x) times the frame block
    at (y + k / 5, x + k % 5).  Each of the 25 products is read off the body's term; the sum taken one term at a
    time from the zero word is the finite sum. -/
theorem predBlock_apply (x0 : Vec Ideal S1x1x260x260 .f32) (x1 : Vec Ideal S1x1x25x256x256 .f32) (y x : Fin 256) :
    predBlock (F := Ideal) x0 x1 (ix2 y x)
      = ∑ k : Fin 25, x1 (ix5 (0 : Fin 1) (0 : Fin 1) k y x) * x0 (ix4 (0 : Fin 1) (0 : Fin 1) (rowOf y k) (colOf x k)) := by
  rw [sum25_fold]
  unfold predBlock k0_pay1 k0_pay11 k0_pay10 k0_pay9 k0_pay8 k0_pay7 k0_pay6
  simp only [addf_apply, mulf_apply, broadcast_apply, frameWin_apply, tapPlane_apply]
  rw [show (FloatOps.ofBits (F := Ideal) FTy.f32 0#32) = (0 : EReal) from ofBits_zero]
  rfl

end Cert.KernelIdeal.Pieces
end
-- ==== Proof.KerPoint.lean ====
/-
  One grid point's blocks are rows of the two staged arrays.

  Point t of the grid is frame t % 8 of burst t / 8.  Its padded-frame block is the staged frame array at
  (t / 8, t % 8, ·, ·) and its tap block the staged tap array at (t / 8, t % 8, ·, ·, ·): a block's entry sits in
  the array at block index times block size plus the coordinate inside the block, and the block sizes on the two
  leading axes are 1.  So the predictions of point t at a pixel are the specification's per-frame prediction of
  the staged arrays at burst t / 8, frame t % 8.
-/
import proofs.«158530_j88347477279316_1_alg».proof.Proof.Spec
import proofs.«158530_j88347477279316_1_alg».proof.Proof.BlockIdx
import proofs.«158530_j88347477279316_1_alg».proof.Proof.KerPayload

set_option maxRecDepth 16384

noncomputable section
open scoped BigOperators
open Idealize.ShloMosaic Idealize.ShloMosaic.TcCoe Idealize.SL.Sem Idealize.ShloMosaic.ValueIdx
namespace Cert.KernelIdeal.Point
open Cert.KernelIdeal Cert.KernelIdeal.Gen Cert.KernelIdeal.Pieces Cert.Burst
variable {F : FTy → Type} [FloatOps F]
variable (m : (ℓ : Loc nD τ sig) → Buf (Elt F) ℓ)

/-- The grid has 4 x 8 = 32 points. -/
theorem N32 : cfg0.N = 32 := N_0

/-- The burst of point `t`. -/
def burstOf (t : Fin cfg0.N) : Fin 4 := ⟨t.val / 8, by have h : t.val < 32 := lt_of_lt_of_eq t.isLt N32; omega⟩
/-- The frame, within its burst, of point `t`. -/
def frameOf (t : Fin cfg0.N) : Fin 8 := ⟨t.val % 8, Nat.mod_lt _ (by decide)⟩

/-- The windows' block indices at point `t`, decided once over the grid: (t / 8, t % 8) on the two leading axes, 0 on
    the others; the burst output moves with the burst only. -/
theorem idx_facts : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 5) = t.val / 8 ∧ win0_1.index t (1 : Fin 5) = t.val % 8
    ∧ win0_1.index t (2 : Fin 5) = 0 ∧ win0_1.index t (3 : Fin 5) = 0 ∧ win0_1.index t (4 : Fin 5) = 0
    ∧ win0_2.index t (0 : Fin 4) = t.val / 8 ∧ win0_2.index t (1 : Fin 4) = t.val % 8
    ∧ win0_2.index t (2 : Fin 4) = 0 ∧ win0_2.index t (3 : Fin 4) = 0
    ∧ win0_3.index t (0 : Fin 3) = t.val / 8 ∧ win0_3.index t (1 : Fin 3) = 0 ∧ win0_3.index t (2 : Fin 3) = 0 :=
  (by decide +kernel : ∀ t : Fin grid0.N, _)

/-- The padded-frame block of point `t` is the staged frame array at its burst and frame. -/
theorem iblk0_apply (c : Dev nD) (t : Fin cfg0.N) (Y X : Fin 260) :
    iblk m c 0 t (ix4 (0 : Fin 1) (0 : Fin 1) Y X) = V m c main_v1 (ix4 (burstOf t) (frameOf t) Y X) := by
  obtain ⟨e0, e1, e2, e3, -⟩ := idx_facts t
  unfold iblk
  rw [View.read_apply]
  show V m c main_v1 _ = V m c main_v1 _
  refine congrArg (V m c main_v1) (funext fun a => Fin.ext ?_)
  match a with
  | ⟨0, _⟩ => show win0_0.index t (0 : Fin 4) * 1 + 1 * 0 = t.val / 8; rw [e0]; omega
  | ⟨1, _⟩ => show win0_0.index t (1 : Fin 4) * 1 + 1 * 0 = t.val % 8; rw [e1]; omega
  | ⟨2, _⟩ => show win0_0.index t (2 : Fin 4) * 260 + 1 * Y.val = Y.val; rw [e2]; omega
  | ⟨3, _⟩ => show win0_0.index t (3 : Fin 4) * 260 + 1 * X.val = X.val; rw [e3]; omega

/-- The tap block of point `t` is the staged tap array at its burst and frame. -/
theorem iblk1_apply (c : Dev nD) (t : Fin cfg0.N) (k : Fin 25) (y x : Fin 256) :
    iblk m c 1 t (ix5 (0 : Fin 1) (0 : Fin 1) k y x) = V m c main_v3 (ix5 (burstOf t) (frameOf t) k y x) := by
  obtain ⟨-, -, -, -, e0, e1, e2, e3, e4, -⟩ := idx_facts t
  unfold iblk
  rw [View.read_apply]
  show V m c main_v3 _ = V m c main_v3 _
  refine congrArg (V m c main_v3) (funext fun a => Fin.ext ?_)
  match a with
  | ⟨0, _⟩ => show win0_1.index t (0 : Fin 5) * 1 + 1 * 0 = t.val / 8; rw [e0]; omega
  | ⟨1, _⟩ => show win0_1.index t (1 : Fin 5) * 1 + 1 * 0 = t.val % 8; rw [e1]; omega
  | ⟨2, _⟩ => show win0_1.index t (2 : Fin 5) * 25 + 1 * k.val = k.val; rw [e2]; omega
  | ⟨3, _⟩ => show win0_1.index t (3 : Fin 5) * 256 + 1 * y.val = y.val; rw [e3]; omega
  | ⟨4, _⟩ => show win0_1.index t (4 : Fin 5) * 256 + 1 * x.val = x.val; rw [e4]; omega

end Cert.KernelIdeal.Point

namespace Cert.KernelIdeal.Point
open Cert.KernelIdeal Cert.KernelIdeal.Gen Cert.KernelIdeal.Pieces Cert.Burst
variable (m : (ℓ : Loc nD τ sig) → Buf (Elt Ideal) ℓ)

/-- The taps as the region finds them: the staged tap array read at (b, n, k, y, x). -/
def tapsK (c : Dev nD) (b : Fin 4) (n : Fin 8) (y x : Fin 256) (k : Fin 25) : EReal := V m c main_v3 (ix5 b n k y x)

/-- The padded frames as the region finds them: the staged frame array read at (b, n, Y, X). -/
def frameK (c : Dev nD) (b : Fin 4) (n : Fin 8) (Y X : Fin 260) : EReal := V m c main_v1 (ix4 b n Y X)

/-- The predictions of point `t` at the pixel (y, x): the per-frame prediction of the staged arrays. -/
theorem predAt_apply (c : Dev nD) (t : Fin cfg0.N) (y x : Fin 256) :
    predBlock (F := Ideal) (iblk m c 0 t) (iblk m c 1 t) (ix2 y x)
      = pred (tapsK m c) (frameK m c) (burstOf t) (frameOf t) y x := by
  refine (predBlock_apply (iblk m c 0 t) (iblk m c 1 t) y x).trans ?_
  unfold pred tapsK frameK
  refine Finset.sum_congr rfl fun k _ => ?_
  rw [iblk0_apply m c t (rowOf y k) (colOf x k), iblk1_apply m c t k y x]

end Cert.KernelIdeal.Point
end
-- ==== Proof.KerValues.lean ====
/-
  The running block and the burst output at one pixel, at the exact instance.

  Over the extended reals the running block after frame j of burst b is, at a pixel, zero plus the sum of the
  predictions of the frames 0 … j of that burst there (addition is associative, so adding one frame at a time is
  the finite sum), and the burst output written at the last frame is that sum over all 8 frames times 1/8: the
  specification's burst mean of the staged arrays.
-/
import proofs.«158530_j88347477279316_1_alg».proof.Proof.KerAcc
import proofs.«158530_j88347477279316_1_alg».proof.Proof.KerPoint

set_option maxRecDepth 16384

noncomputable section
open scoped BigOperators
open Idealize.ShloMosaic Idealize.ShloMosaic.TcCoe Idealize.SL.Sem Idealize.ShloMosaic.ValueIdx
namespace Cert.KernelIdeal.Values
open Cert.KernelIdeal Cert.KernelIdeal.Gen Cert.KernelIdeal.Pieces Cert.KernelIdeal.Acc Cert.KernelIdeal.Point Cert.Burst
variable (m : (ℓ : Loc nD τ sig) → Buf (Elt Ideal) ℓ)

/-- The zero block is zero at every pixel. -/
theorem zeroBlock_apply (y x : Fin 256) : k0_pay5 (F := Ideal) (ix2 y x) = 0 := by
  unfold k0_pay5
  rw [shapeCast_self]
  show Ideal.ofBits .f32 0x00000000#32 = 0
  exact ofBits_zero

/-- One more frame at a pixel: the carried value plus the frame's prediction. -/
theorem accStep_apply (a : Vec Ideal S256x256 .f32) (x0 : Vec Ideal S1x1x260x260 .f32) (x1 : Vec Ideal S1x1x25x256x256 .f32)
    (y x : Fin 256) : accStep a x0 x1 (ix2 y x) = a (ix2 y x) + predBlock x0 x1 (ix2 y x) := by
  rw [accStep_eq]; rfl

/-- The burst output block at a pixel: the running value times 1/8. -/
theorem scaled_apply (v : Vec Ideal S256x256 .f32) (u : Fin 1) (y x : Fin 256) :
    k0_pay4 v (ix3 u y x) = v (ix2 y x) * (((1 / 8 : ℝ) : ℝ) : EReal) := by
  unfold k0_pay4
  rw [cast_ab_1ab]
  show v (ix2 y x) * Ideal.ofBits .f32 0x3E000000#32 = _
  rw [ofBits_eighth]

/-- The prediction of point `s` at the pixel (y, x) (zero past the grid). -/
def pAt (c : Dev nD) (y x : Fin 256) (s : ℕ) : EReal :=
  if hs : s < cfg0.N then predBlock (F := Ideal) (iblk m c 0 ⟨s, hs⟩) (iblk m c 1 ⟨s, hs⟩) (ix2 y x) else 0

theorem acc_congr (c : Dev nD) {n n' : ℕ} (e : n = n') (h : n < cfg0.N) (h' : n' < cfg0.N) :
    acc m c n h = acc m c n' h' := by subst e; rfl

/-- After frame `j` of burst `b` the running value at a pixel is zero plus the sum of the predictions of the frames
    0 … j of the burst. -/
theorem acc_apply (c : Dev nD) (y x : Fin 256) (b : ℕ) : ∀ (j : ℕ) (hj : j < 8) (h : 8 * b + j < cfg0.N),
    acc m c (8 * b + j) h (ix2 y x) = 0 + ∑ i ∈ Finset.range (j + 1), pAt m c y x (8 * b + i)
  | 0, _, h => by
    rw [acc_reset m c (8 * b + 0) h (by omega), accStep_apply, zeroBlock_apply, Finset.sum_range_one]
    unfold pAt; rw [dif_pos h]
  | j + 1, hj, h => by
    have h0 : ¬(8 * b + j + 1) % 8 = 0 := by omega
    refine (congrFun (acc_step m c (8 * b + j) h h0) (ix2 y x)).trans ?_
    rw [accStep_apply, acc_apply c y x b j (by omega) (Nat.lt_of_succ_lt h), Finset.sum_range_succ _ (j + 1), ← add_assoc]
    congr 1
    unfold pAt; rw [dif_pos h]
    rfl

/-- At the last frame of a burst the burst output block holds the specification's burst mean of the staged arrays. -/
theorem mean_apply (c : Dev nD) (t : Fin cfg0.N) (h7 : t.val % 8 = 7) (u : Fin 1) (y x : Fin 256) :
    k0_pay4 (acc m c t.val t.isLt) (ix3 u y x) = mean (tapsK m c) (frameK m c) (burstOf t) y x := by
  have hN : t.val < 32 := lt_of_lt_of_eq t.isLt N32
  have ht : t.val = 8 * (t.val / 8) + 7 := by omega
  have hb : 8 * (t.val / 8) + 7 < cfg0.N := lt_of_lt_of_eq (by omega : 8 * (t.val / 8) + 7 < 32) N32.symm
  rw [scaled_apply, acc_congr m c ht t.isLt hb, acc_apply m c y x (t.val / 8) 7 (by decide) hb, zero_add, Finset.sum_range]
  unfold mean
  congr 1
  refine Finset.sum_congr rfl fun n _ => ?_
  have hn : 8 * (t.val / 8) + n.val < cfg0.N := lt_of_lt_of_eq (by have := n.isLt; omega : 8 * (t.val / 8) + n.val < 32) N32.symm
  unfold pAt
  rw [dif_pos hn, predAt_apply m c ⟨8 * (t.val / 8) + n.val, hn⟩ y x]
  have e1 : burstOf (⟨8 * (t.val / 8) + n.val, hn⟩ : Fin cfg0.N) = burstOf t :=
    Fin.ext (by show (8 * (t.val / 8) + n.val) / 8 = t.val / 8; have := n.isLt; omega)
  have e2 : frameOf (⟨8 * (t.val / 8) + n.val, hn⟩ : Fin cfg0.N) = n :=
    Fin.ext (by show (8 * (t.val / 8) + n.val) % 8 = n.val; have := n.isLt; omega)
  rw [e1, e2]

end Cert.KernelIdeal.Values
end
-- ==== Proof.KerArrays.lean ====
/-
  The two output arrays after the run.

  Every grid point writes its per-frame output block back to block (t / 8, t % 8) of the per-frame output array, and
  the last frame of each burst writes the burst output block back to block t / 8 of the burst output array.  The
  blocks tile both arrays, so after the run the per-frame output array holds the specification's per-frame
  prediction of the staged arrays at every (b, n, y, x), and the burst output array its burst mean at every (b, y, x).
-/
import proofs.«158530_j88347477279316_1_alg».proof.Proof.KerValues
import Idealize.ShloMosaic.Lib.Pipeline.Value

set_option maxRecDepth 16384

noncomputable section
open scoped BigOperators
open Idealize.ShloMosaic Idealize.ShloMosaic.TcCoe Idealize.SL.Sem Idealize.ShloMosaic.ValueIdx
open Idealize.ShloMosaic.Pipeline (Dat)
namespace Cert.KernelIdeal.Arrays
open Cert.KernelIdeal Cert.KernelIdeal.Gen Cert.KernelIdeal.Pieces Cert.KernelIdeal.Acc Cert.KernelIdeal.Point Cert.KernelIdeal.Values Cert.Burst
variable (m : (ℓ : Loc nD τ sig) → Buf (Elt Ideal) ℓ)

/-- What the per-frame output array ends holding: the per-frame prediction of the staged arrays. -/
def G2 (c : Dev nD) : S4x8x256x256.Idx → EReal := fun i => pred (tapsK m c) (frameK m c) (i 0) (i 1) (i 2) (i 3)

/-- What the burst output array ends holding: the burst mean of the staged arrays. -/
def G3 (c : Dev nD) : S4x256x256.Idx → EReal := fun i => mean (tapsK m c) (frameK m c) (i 0) (i 1) (i 2)

/-- Entry (u, w, y, x) of point `t`'s per-frame output block sits at (t / 8, t % 8, y, x) of the array. -/
theorem emb2 (t : Fin cfg0.N) (u w : Fin 1) (y x : Fin 256) :
    ((cfg0.win 2).blk t).view.emb (ix4 u w y x) = ix4 (burstOf t) (frameOf t) y x := by
  obtain ⟨-, -, -, -, -, -, -, -, -, e0, e1, e2, e3, -⟩ := idx_facts t
  funext a; apply Fin.ext
  have hu := u.isLt; have hw := w.isLt
  match a with
  | ⟨0, _⟩ => show win0_2.index t (0 : Fin 4) * 1 + 1 * u.val = t.val / 8; rw [e0]; omega
  | ⟨1, _⟩ => show win0_2.index t (1 : Fin 4) * 1 + 1 * w.val = t.val % 8; rw [e1]; omega
  | ⟨2, _⟩ => show win0_2.index t (2 : Fin 4) * 256 + 1 * y.val = y.val; rw [e2]; omega
  | ⟨3, _⟩ => show win0_2.index t (3 : Fin 4) * 256 + 1 * x.val = x.val; rw [e3]; omega

/-- Entry (u, y, x) of the burst output block written at point `t` sits at (t / 8, y, x) of the array. -/
theorem emb3 (t : Fin cfg0.N) (u : Fin 1) (y x : Fin 256) :
    ((cfg0.win 3).blk t).view.emb (ix3 u y x) = ix3 (burstOf t) y x := by
  obtain ⟨-, -, -, -, -, -, -, -, -, -, -, -, -, e0, e1, e2⟩ := idx_facts t
  funext a; apply Fin.ext
  have hu := u.isLt
  match a with
  | ⟨0, _⟩ => show win0_3.index t (0 : Fin 3) * 1 + 1 * u.val = t.val / 8; rw [e0]; omega
  | ⟨1, _⟩ => show win0_3.index t (1 : Fin 3) * 256 + 1 * y.val = y.val; rw [e1]; omega
  | ⟨2, _⟩ => show win0_3.index t (2 : Fin 3) * 256 + 1 * x.val = x.val; rw [e2]; omega

/-- What point `t` writes back to the per-frame output array is its block of `G2`. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, out2_eq]
  funext j
  obtain ⟨u, w, y, x, rfl⟩ : ∃ (u w : Fin 1) (y x : Fin 256), j = ix4 u w y x := ⟨j 0, j 1, j 2, j 3, eq_ix4 j⟩
  rw [View.read_apply, emb2]
  show shapeCast S1x1x256x256 (predBlock (iblk m c 0 t) (iblk m c 1 t)) shapeCasts_S256x256_S1x1x256x256 (ix4 u w y x) = _
  rw [cast_ab_11ab, predAt_apply]
  rfl

/-- What the last frame of a burst writes back to the burst output array is its block of `G3`. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after0_3, out3_eq m c t.val t.isLt h7]
  funext j
  obtain ⟨u, y, x, rfl⟩ : ∃ (u : Fin 1) (y x : Fin 256), j = ix3 u y x := ⟨j 0, j 1, j 2, eq_ix3 j⟩
  rw [View.read_apply, emb3]
  show k0_pay4 (acc m c t.val t.isLt) (ix3 u y x) = _
  rw [mean_apply m c t h7]
  rfl

/-- An index of the per-frame output array is in point `t`'s block iff each coordinate is in the block's range. -/
theorem mem_blk2 (t : Fin cfg0.N) (i : S4x8x256x256.Idx) :
    i ∈ ((cfg0.win 2).blk t).view.set ↔ ∀ a : Fin 4, win0_2.index t a * S1x1x256x256.size a ≤ (i a).val ∧ (i a).val < win0_2.index t a * S1x1x256x256.size a + S1x1x256x256.size a := by
  show i ∈ ((View.whole main_v4_0).slice (win0_2.rect t)).set ↔ _
  rw [View.set_slice_whole, Rect.mem_set_unit]
  exact Iff.rfl

theorem mem_blk3 (t : Fin cfg0.N) (i : S4x256x256.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v4_1).slice (win0_3.rect t)).set ↔ _
  rw [View.set_slice_whole, Rect.mem_set_unit]
  exact Iff.rfl

/-- The per-frame output array after the run. -/
theorem final2 (c : Dev nD) : (dats m 0 c).arrAt 2 cfg0.N = G2 m c :=
  (dats m 0 c).arrAt_eq_of_cover 2 (G2 m c) (fun t _ => flushed2_eq m c t) fun i => by
    have h0 : (i 0).val < 4 := (i 0).isLt
    have h1 : (i 1).val < 8 := (i 1).isLt
    have h2 : (i 2).val < 256 := (i 2).isLt
    have h3 : (i 3).val < 256 := (i 3).isLt
    obtain ⟨t, ht⟩ : ∃ t : Fin cfg0.N, t.val = 8 * (i 0).val + (i 1).val :=
      ⟨⟨8 * (i 0).val + (i 1).val, lt_of_lt_of_eq (by omega : 8 * (i 0).val + (i 1).val < 32) N32.symm⟩, rfl⟩
    obtain ⟨-, -, -, -, -, -, -, -, -, e0, e1, e2, e3, -⟩ := idx_facts t
    refine ⟨t, flush0_2 t, ?_⟩
    rw [mem_blk2]
    intro a
    match a with
    | ⟨0, _⟩ => show win0_2.index t (0 : Fin 4) * 1 ≤ (i 0).val ∧ (i 0).val < win0_2.index t (0 : Fin 4) * 1 + 1; rw [e0]; omega
    | ⟨1, _⟩ => show win0_2.index t (1 : Fin 4) * 1 ≤ (i 1).val ∧ (i 1).val < win0_2.index t (1 : Fin 4) * 1 + 1; rw [e1]; omega
    | ⟨2, _⟩ => show win0_2.index t (2 : Fin 4) * 256 ≤ (i 2).val ∧ (i 2).val < win0_2.index t (2 : Fin 4) * 256 + 256; rw [e2]; omega
    | ⟨3, _⟩ => show win0_2.index t (3 : Fin 4) * 256 ≤ (i 3).val ∧ (i 3).val < win0_2.index t (3 : Fin 4) * 256 + 256; rw [e3]; omega

/-- The burst output array after the run. -/
theorem final3 (c : Dev nD) : (dats m 0 c).arrAt 3 cfg0.N = G3 m c :=
  (dats m 0 c).arrAt_eq_of_cover 3 (G3 m c) (fun t hf => flushed3_eq m c t hf) fun i => by
    have h0 : (i 0).val < 4 := (i 0).isLt
    have h1 : (i 1).val < 256 := (i 1).isLt
    have h2 : (i 2).val < 256 := (i 2).isLt
    obtain ⟨t, ht⟩ : ∃ t : Fin cfg0.N, t.val = 8 * (i 0).val + 7 :=
      ⟨⟨8 * (i 0).val + 7, lt_of_lt_of_eq (by omega : 8 * (i 0).val + 7 < 32) N32.symm⟩, rfl⟩
    obtain ⟨-, -, -, -, -, -, -, -, -, -, -, -, -, e0, e1, e2⟩ := idx_facts t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; rw [e0]; omega
    | ⟨1, _⟩ => show win0_3.index t (1 : Fin 3) * 256 ≤ (i 1).val ∧ (i 1).val < win0_3.index t (1 : Fin 3) * 256 + 256; rw [e1]; omega
    | ⟨2, _⟩ => show win0_3.index t (2 : Fin 3) * 256 ≤ (i 2).val ∧ (i 2).val < win0_3.index t (2 : Fin 3) * 256 + 256; rw [e2]; omega

end Cert.KernelIdeal.Arrays
end
-- ==== Proof.KerRun.lean ====
/-
  The kernel's run, read: its two results as functions of the staged arrays.

  After the region the program only gives each output array a trailing unit axis.  So the first result holds, at
  (b, y, x, 0), the burst mean of the staged arrays, and the second, at (b, n, y, x, 0), their per-frame
  prediction; the two argument arrays end unchanged.
-/
import proofs.«158530_j88347477279316_1_alg».proof.Proof.KerArrays
import Idealize.ShloMosaic.Lib.StableHlo.Run
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Tail
open Cert.KernelIdeal Cert.KernelIdeal.Gen
variable {F : FTy → Type} [FloatOps F]
variable (m : (ℓ : Loc nD τ sig) → Buf (Elt F) ℓ)

/-- The first result is the burst output array with a trailing unit axis. -/
theorem tail5 (c : Dev nD) :
    Pipeline.afterTail₀ cfgs (dats m) 0 (V0 m) [hostOps1] c main_v5
      = broadcastInDim S4x256x256x1 ![0, 1, 2] bcast_S4x256x256_S4x256x256x1_0_1_2 ((dats m 0 c).arrAt 3 cfg0.N) := by
  unfold Pipeline.afterTail₀
  show StableHlo.after hostOps1 _ (Proc.devRef .tc main_v5) = _
  after_results
  refine congrArg (broadcastInDim (s := S4x256x256) S4x256x256x1 ![0, 1, 2] bcast_S4x256x256_S4x256x256x1_0_1_2) ?_
  exact Pipeline.withArrays_arr spec0 launch0.win.arr_inj c _ _ 3

/-- The second result is the per-frame output array with a trailing unit axis. -/
theorem tail6 (c : Dev nD) :
    Pipeline.afterTail₀ cfgs (dats m) 0 (V0 m) [hostOps1] c main_v6
      = broadcastInDim S4x8x256x256x1 ![0, 1, 2, 3] bcast_S4x8x256x256_S4x8x256x256x1_0_1_2_3 ((dats m 0 c).arrAt 2 cfg0.N) := by
  unfold Pipeline.afterTail₀
  show StableHlo.after hostOps1 _ (Proc.devRef .tc main_v6) = _
  after_results
  refine congrArg (broadcastInDim (s := S4x8x256x256) S4x8x256x256x1 ![0, 1, 2, 3] bcast_S4x8x256x256_S4x8x256x256x1_0_1_2_3) ?_
  exact Pipeline.withArrays_arr spec0 launch0.win.arr_inj c _ _ 2

/-- The kernel's run with its two results named through the two output arrays. -/
theorem run_tail (ρ : Dev nD → PrngReg) : θ_run defs (onTc (τ := τ) (main (F := F))) ⟨m, fun _ => 0, ρ⟩ (fun r => ∀ c : Dev nD,
      r.2.mem ((c.tc : Thread nD τ).loc main_v5) = broadcastInDim S4x256x256x1 ![0, 1, 2] bcast_S4x256x256_S4x256x256x1_0_1_2 ((dats m 0 c).arrAt 3 cfg0.N)
      ∧ r.2.mem ((c.tc : Thread nD τ).loc main_v6) = broadcastInDim S4x8x256x256x1 ![0, 1, 2, 3] bcast_S4x8x256x256_S4x8x256x256x1_0_1_2_3 ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (tail5 m c),
     ((h c).2 main_v6 (Pipeline.mem_restRefs_of main_v6 (by decide) (by decide))).trans (tail6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Tail

namespace Cert.KernelIdeal.Run
open Cert.KernelIdeal Cert.KernelIdeal.Gen Cert.KernelIdeal.Point Cert.KernelIdeal.Arrays Cert.Burst
variable (m : (ℓ : Loc nD τ sig) → Buf (Elt Ideal) ℓ)

/-- The first result: the burst mean of the staged arrays. -/
def R5 (c : Dev nD) : S4x256x256x1.Idx → EReal := fun i => mean (tapsK m c) (frameK m c) (i 0) (i 1) (i 2)

/-- The second result: the per-frame prediction of the staged arrays. -/
def R6 (c : Dev nD) : S4x8x256x256x1.Idx → EReal := fun i => pred (tapsK m c) (frameK m c) (i 0) (i 1) (i 2) (i 3)

/-- A trailing unit axis added to a rank-3 array keeps the other coordinates. -/
theorem bcast5 (A : S4x256x256.Idx → EReal) :
    broadcastInDim S4x256x256x1 ![0, 1, 2] bcast_S4x256x256_S4x256x256x1_0_1_2 A = fun i => A (ix3 (i 0) (i 1) (i 2)) := by
  funext i
  refine broadcastInDim_apply _ _ A i (ix3 (i 0) (i 1) (i 2)) fun a => ?_
  match a with
  | ⟨0, _⟩ => rfl
  | ⟨1, _⟩ => rfl
  | ⟨2, _⟩ => rfl

/-- A trailing unit axis added to a rank-4 array keeps the other coordinates. -/
theorem bcast6 (A : S4x8x256x256.Idx → EReal) :
    broadcastInDim S4x8x256x256x1 ![0, 1, 2, 3] bcast_S4x8x256x256_S4x8x256x256x1_0_1_2_3 A = fun i => A (ix4 (i 0) (i 1) (i 2) (i 3)) := by
  funext i
  refine broadcastInDim_apply _ _ A i (ix4 (i 0) (i 1) (i 2) (i 3)) fun a => ?_
  match a with
  | ⟨0, _⟩ => rfl
  | ⟨1, _⟩ => rfl
  | ⟨2, _⟩ => rfl
  | ⟨3, _⟩ => rfl

/-- Every weakly fair execution of the kernel's program ends with the two results at the burst mean and the
    per-frame prediction of the staged arrays, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v5) = R5 m c
      ∧ r.2.mem ((c.tc : Thread nD τ).loc main_v6) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1.trans (by rw [final3 m c, bcast5]; rfl),
     (h c).2.1.trans (by rw [final2 m c, bcast6]; rfl),
     (h c).2.2.1, (h c).2.2.2⟩)
    (Cert.KernelIdeal.Tail.run_tail m ρ)

end Cert.KernelIdeal.Run
end
-- ==== Proof.lean ====
/-
  The burst filter: a per-pixel 5 x 5 filter applied to each of 8 frames, then the mean over the frames.

  The kernel pads each frame with two zeros on every side, regroups the filter taps so that the 25 taps of a pixel
  become 25 planes, and visits the 4 x 8 (burst, frame) pairs in order: at each it adds the 25 products of a tap
  plane with the matching shifted window of the padded frame, stores that block as the per-frame result, and adds
  it to a running block that is reset at the first frame of a burst and, at the last, stored times 1/8 as the
  burst result.  The reference pads the same frames, stacks the 25 shifted windows along a new axis, multiplies by
  the same regrouped taps and sums over the new axis, then sums over the frames and divides by 8.

  Over the extended reals the two are one function of the arguments.  Both read the same padded frame and the same
  tap at every (burst, frame, pixel, tap): the regrouping is a row-major reshape on both sides, and the padding
  value is the same term.  A sum of products taken one term at a time from zero is the finite sum, because
  addition of extended reals is associative with unit zero; and dividing by the real 8 is multiplying by the real
  1/8 on every extended real.  No finiteness of the inputs is used.  The idealization rewrote nothing, and the
  three programs' frames are their runs with the results dropped.
-/
import proofs.«158530_j88347477279316_1_alg».proof.Defs
import proofs.«158530_j88347477279316_1_alg».proof.Proof.Gen.Kernel
import proofs.«158530_j88347477279316_1_alg».proof.Proof.Gen.Kernel.Skeleton
import proofs.«158530_j88347477279316_1_alg».proof.Proof.Gen.Kernel.Launch
import proofs.«158530_j88347477279316_1_alg».proof.Proof.Gen.Kernel.Points
import proofs.«158530_j88347477279316_1_alg».proof.Proof.Gen.Kernel.Frame
import proofs.«158530_j88347477279316_1_alg».proof.Proof.Gen.KernelIdeal
import proofs.«158530_j88347477279316_1_alg».proof.Proof.Gen.KernelIdeal.Skeleton
import proofs.«158530_j88347477279316_1_alg».proof.Proof.Gen.KernelIdeal.Launch
import proofs.«158530_j88347477279316_1_alg».proof.Proof.Gen.KernelIdeal.Points
import proofs.«158530_j88347477279316_1_alg».proof.Proof.Gen.KernelIdeal.Frame
import proofs.«158530_j88347477279316_1_alg».proof.Proof.Gen.ReferenceIdeal
import proofs.«158530_j88347477279316_1_alg».proof.Proof.Gen.ReferenceIdeal.Run
import proofs.«158530_j88347477279316_1_alg».proof.Proof.Gen.ReferenceIdeal.Read
import proofs.«158530_j88347477279316_1_alg».proof.Proof.Gen.Pre_finite_inputs
import Idealize.ShloMosaic.Adequacy
import Idealize.ShloMosaic.Init
import proofs.«158530_j88347477279316_1_alg».proof.Proof.Spec
import proofs.«158530_j88347477279316_1_alg».proof.Proof.RefValue
import proofs.«158530_j88347477279316_1_alg».proof.Proof.Staged
import proofs.«158530_j88347477279316_1_alg».proof.Proof.KerRun
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The staged taps are the reference's reshaped taps. -/
theorem taps_eq (m : (ℓ : Loc Cert.KernelIdeal.nD Cert.KernelIdeal.τ Cert.KernelIdeal.sig) → Buf (Elt Ideal) ℓ) (c : Dev Cert.KernelIdeal.nD) :
    Cert.KernelIdeal.Point.tapsK m c
      = Cert.ReferenceIdeal.RefValue.coreR (m ((c.tc : Thread Cert.KernelIdeal.nD Cert.KernelIdeal.τ).loc Cert.KernelIdeal.main_arg1)) := by
  funext b n y x k
  exact Cert.KernelIdeal.Staged.V_taps m c b n k y x

/-- The staged padded frames are the reference's padded frames. -/
theorem frames_eq (m : (ℓ : Loc Cert.KernelIdeal.nD Cert.KernelIdeal.τ Cert.KernelIdeal.sig) → Buf (Elt Ideal) ℓ) (c : Dev Cert.KernelIdeal.nD) :
    Cert.KernelIdeal.Point.frameK m c
      = Cert.ReferenceIdeal.RefValue.padR (m ((c.tc : Thread Cert.KernelIdeal.nD Cert.KernelIdeal.τ).loc Cert.KernelIdeal.main_arg0)) := by
  funext b n Y X
  exact Cert.KernelIdeal.Staged.V_frame m c b n Y X

/-- From memories agreeing on the arguments both programs end with the burst mean and the per-frame prediction of
    one padded frame array and one tap array. -/
theorem algebraic : Cert.algebraic_KernelIdeal_ReferenceIdeal := by
  intro m ρ m' ρ' _ hagree
  refine ⟨fun c => Cert.KernelIdeal.Run.R5 m c, fun c => Cert.KernelIdeal.Run.R6 m c, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v59_eq, (hagree c).1, (hagree c).2]
    funext i
    obtain ⟨b, y, x, u, rfl⟩ : ∃ (b : Fin 4) (y x : Fin 256) (u : Fin 1), i = ix4 b y x u := ⟨i 0, i 1, i 2, i 3, eq_ix4 i⟩
    obtain rfl : u = 0 := Subsingleton.elim _ _
    rw [Cert.ReferenceIdeal.RefValue.ref_mean]
    show _ = Cert.Burst.mean (Cert.KernelIdeal.Point.tapsK m c) (Cert.KernelIdeal.Point.frameK m c) b y x
    rw [taps_eq m c, frames_eq m c]
  · rw [Cert.ReferenceIdeal.Read.val_main_v56_eq, (hagree c).1, (hagree c).2]
    funext i
    obtain ⟨b, n, y, x, u, rfl⟩ : ∃ (b : Fin 4) (n : Fin 8) (y x : Fin 256) (u : Fin 1), i = ix5 b n y x u :=
      ⟨i 0, i 1, i 2, i 3, i 4, eq_ix5 i⟩
    obtain rfl : u = 0 := Subsingleton.elim _ _
    rw [Cert.ReferenceIdeal.RefValue.ref_pred]
    show _ = Cert.Burst.pred (Cert.KernelIdeal.Point.tapsK m c) (Cert.KernelIdeal.Point.frameK m c) b n y x
    rw [taps_eq m c, frames_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
